-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v94)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v94) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S5 : Shape := ⟨1, ![5]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S5 : S_.BroadcastsInDim S5 (![] : Fin 0 → Fin S5.rank)
  reducesTo_S5_S_d0 : S5.ReducesTo [0] S_

variable [Facts]

def fn_part1 {F : FTy → Type} [FloatOps F] (main_arg6 : FVec F S256x64 .f32) (main_arg7 : FVec F S64 .f32) (main_arg8 : FVec F S5 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x64 .f32 := Host.absf main_arg6
  let main_cst_6 : FVec F S_ .f32 := constant S_ .f32 0x7F800000#32
  let main_v20 : FVec F S256x64 .f32 := broadcastInDim S256x64 ![] bcast_S_S256x64 main_cst_6
  let main_v21 : IVec S256x64 1 := cmpf .olt main_v19 main_v20
  let main_c_7 : IVec S_ 1 := constantI S_ 1 1#1
  let main_v22 : IVec S_ 1 := (fun x v => Host.reduce IntOp.andi x v reducesTo_S256x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S5 .f32 := Host.absf main_arg8
  let main_cst_10 : FVec F S_ .f32 := constant S_ .f32 0x7F800000#32
  let main_v30 : FVec F S5 .f32 := broadcastInDim S5 ![] bcast_S_S5 main_cst_10
  let main_v31 : IVec S5 1 := cmpf .olt main_v29 main_v30
  let main_c_11 : IVec S_ 1 := constantI S_ 1 1#1
  let main_v32 : IVec S_ 1 := (fun x v => Host.reduce IntOp.andi x v reducesTo_S5_S_d0 h_S_) main_v31 main_c_11
  let main_v33 : IVec S_ 1 := andi main_v28 main_v32
  main_v33

def fn {F : FTy → Type} [FloatOps F] (main_arg0 : FVec F S100000x512 .f32) (main_arg1 : IVec S3200000 32) (main_arg2 : IVec S3200000 32) (main_arg3 : FVec F S3200000 .f32) (main_arg4 : FVec F S512x256 .f32) (main_arg5 : FVec F S256 .f32) (main_arg6 : FVec F S256x64 .f32) (main_arg7 : FVec F S64 .f32) (main_arg8 : FVec F S5 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x256 .f32 := Host.absf main_arg4
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S100000x512 : Shape := ⟨2, ![100000, 512]⟩
abbrev S3200000 : Shape := ⟨1, ![3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S5 : Shape := ⟨1, ![5]⟩
abbrev S1x256 : Shape := ⟨2, ![1, 256]⟩
abbrev S1x64 : Shape := ⟨2, ![1, 64]⟩
abbrev S100000x64 : Shape := ⟨2, ![100000, 64]⟩
abbrev S2000x512 : Shape := ⟨2, ![2000, 512]⟩
abbrev S2000x64 : Shape := ⟨2, ![2000, 64]⟩
abbrev S2000x256 : Shape := ⟨2, ![2000, 256]⟩
abbrev S_ : Shape := ⟨0, ![]⟩
abbrev S3200000x1 : Shape := ⟨2, ![3200000, 1]⟩
abbrev S3200000x64 : Shape := ⟨2, ![3200000, 64]⟩
abbrev S1 : Shape := ⟨1, ![1]⟩
abbrev S4000x64 : Shape := ⟨2, ![4000, 64]⟩
abbrev S4000 : Shape := ⟨1, ![4000]⟩
abbrev S4000x1 : Shape := ⟨2, ![4000, 1]⟩

abbrev nBuf : Space → Nat
  | .hbm => 120
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x256, .f32⟩
  | .hbm, ⟨5, _⟩ => ⟨S256, .f32⟩
  | .hbm, ⟨6, _⟩ => ⟨S256x64, .f32⟩
  | .hbm, ⟨7, _⟩ => ⟨S64, .f32⟩
  | .hbm, ⟨8, _⟩ => ⟨S5, .f32⟩
  | .hbm, ⟨9, _⟩ => ⟨S1x256, .f32⟩
  | .hbm, ⟨10, _⟩ => ⟨S1x64, .f32⟩
  | .hbm, ⟨11, _⟩ => ⟨S100000x64, .f32⟩
  | .hbm, ⟨12, _⟩ => ⟨S_, .f32⟩
  | .hbm, ⟨13, _⟩ => ⟨S100000x64, .f32⟩
  | .hbm, ⟨14, _⟩ => ⟨S3200000x1, .f32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x64, .f32⟩
  | .hbm, ⟨24, _⟩ => ⟨S3200000x64, .f32⟩
  | .hbm, ⟨25, _⟩ => ⟨S3200000x64, .f32⟩
  | .hbm, ⟨26, _⟩ => ⟨S_, .f32⟩
  | .hbm, ⟨27, _⟩ => ⟨S100000x64, .f32⟩
  | .hbm, ⟨28, _⟩ => ⟨S3200000x1, .i32⟩
  | .hbm, ⟨29, _⟩ => ⟨S100000x64, .f32⟩
  | .hbm, ⟨30, _⟩ => ⟨S1, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S100000x64, .f32⟩
  | .hbm, ⟨35, _⟩ => ⟨S3200000x1, .f32⟩
  | .hbm, ⟨36, _⟩ => ⟨S_, .i32⟩
  | .hbm, ⟨37, _⟩ => ⟨S3200000, .i32⟩
  | .hbm, ⟨38, _⟩ => ⟨S3200000, .i1⟩
  | .hbm, ⟨39, _⟩ => ⟨S_, .i32⟩
  | .hbm, ⟨40, _⟩ => ⟨S3200000, .i32⟩
  | .hbm, ⟨41, _⟩ => ⟨S3200000, .i32⟩
  | .hbm, ⟨42, _⟩ => ⟨S3200000, .i32⟩
  | .hbm, ⟨43, _⟩ => ⟨S3200000x1, .i32⟩
  | .hbm, ⟨44, _⟩ => ⟨S3200000x64, .f32⟩
  | .hbm, ⟨45, _⟩ => ⟨S3200000x64, .f32⟩
  | .hbm, ⟨46, _⟩ => ⟨S3200000x64, .f32⟩
  | .hbm, ⟨47, _⟩ => ⟨S_, .f32⟩
  | .hbm, ⟨48, _⟩ => ⟨S100000x64, .f32⟩
  | .hbm, ⟨49, _⟩ => ⟨S3200000x1, .i32⟩
  | .hbm, ⟨50, _⟩ => ⟨S100000x64, .f32⟩
  | .hbm, ⟨51, _⟩ => ⟨S1, .f32⟩
  | .hbm, ⟨52, _⟩ => ⟨S_, .f32⟩
  | .hbm, ⟨53, _⟩ => ⟨S100000x64, .f32⟩
  | .hbm, ⟨54, _⟩ => ⟨S100000x64, .f32⟩
  | .hbm, ⟨55, _⟩ => ⟨S100000x64, .f32⟩
  | .hbm, ⟨56, _⟩ => ⟨S3200000x1, .f32⟩
  | .hbm, ⟨57, _⟩ => ⟨S_, .i32⟩
  | .hbm, ⟨58, _⟩ => ⟨S3200000, .i32⟩
  | .hbm, ⟨59, _⟩ => ⟨S3200000, .i1⟩
  | .hbm, ⟨60, _⟩ => ⟨S_, .i32⟩
  | .hbm, ⟨61, _⟩ => ⟨S3200000, .i32⟩
  | .hbm, ⟨62, _⟩ => ⟨S3200000, .i32⟩
  | .hbm, ⟨63, _⟩ => ⟨S3200000, .i32⟩
  | .hbm, ⟨64, _⟩ => ⟨S3200000x1, .i32⟩
  | .hbm, ⟨65, _⟩ => ⟨S3200000x64, .f32⟩
  | .hbm, ⟨66, _⟩ => ⟨S3200000x64, .f32⟩
  | .hbm, ⟨67, _⟩ => ⟨S3200000x64, .f32⟩
  | .hbm, ⟨68, _⟩ => ⟨S_, .f32⟩
  | .hbm, ⟨69, _⟩ => ⟨S100000x64, .f32⟩
  | .hbm, ⟨70, _⟩ => ⟨S3200000x1, .i32⟩
  | .hbm, ⟨71, _⟩ => ⟨S100000x64, .f32⟩
  | .hbm, ⟨72, _⟩ => ⟨S1, .f32⟩
  | .hbm, ⟨73, _⟩ => ⟨S_, .f32⟩
  | .hbm, ⟨74, _⟩ => ⟨S100000x64, .f32⟩
  | .hbm, ⟨75, _⟩ => ⟨S100000x64, .f32⟩
  | .hbm, ⟨76, _⟩ => ⟨S100000x64, .f32⟩
  | .hbm, ⟨77, _⟩ => ⟨S3200000x1, .f32⟩
  | .hbm, ⟨78, _⟩ => ⟨S_, .i32⟩
  | .hbm, ⟨79, _⟩ => ⟨S3200000, .i32⟩
  | .hbm, ⟨80, _⟩ => ⟨S3200000, .i1⟩
  | .hbm, ⟨81, _⟩ => ⟨S_, .i32⟩
  | .hbm, ⟨82, _⟩ => ⟨S3200000, .i32⟩
  | .hbm, ⟨83, _⟩ => ⟨S3200000, .i32⟩
  | .hbm, ⟨84, _⟩ => ⟨S3200000, .i32⟩
  | .hbm, ⟨85, _⟩ => ⟨S3200000x1, .i32⟩
  | .hbm, ⟨86, _⟩ => ⟨S3200000x64, .f32⟩
  | .hbm, ⟨87, _⟩ => ⟨S3200000x64, .f32⟩
  | .hbm, ⟨88, _⟩ => ⟨S3200000x64, .f32⟩
  | .hbm, ⟨89, _⟩ => ⟨S_, .f32⟩
  | .hbm, ⟨90, _⟩ => ⟨S100000x64, .f32⟩
  | .hbm, ⟨91, _⟩ => ⟨S3200000x1, .i32⟩
  | .hbm, ⟨92, _⟩ => ⟨S100000x64, .f32⟩
  | .hbm, ⟨93, _⟩ => ⟨S1, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S3200000x1, .f32⟩
  | .hbm, ⟨99, _⟩ => ⟨S_, .i32⟩
  | .hbm, ⟨100, _⟩ => ⟨S3200000, .i32⟩
  | .hbm, ⟨101, _⟩ => ⟨S3200000, .i1⟩
  | .hbm, ⟨102, _⟩ => ⟨S_, .i32⟩
  | .hbm, ⟨103, _⟩ => ⟨S3200000, .i32⟩
  | .hbm, ⟨104, _⟩ => ⟨S3200000, .i32⟩
  | .hbm, ⟨105, _⟩ => ⟨S3200000, .i32⟩
  | .hbm, ⟨106, _⟩ => ⟨S3200000x1, .i32⟩
  | .hbm, ⟨107, _⟩ => ⟨S3200000x64, .f32⟩
  | .hbm, ⟨108, _⟩ => ⟨S3200000x64, .f32⟩
  | .hbm, ⟨109, _⟩ => ⟨S3200000x64, .f32⟩
  | .hbm, ⟨110, _⟩ => ⟨S_, .f32⟩
  | .hbm, ⟨111, _⟩ => ⟨S100000x64, .f32⟩
  | .hbm, ⟨112, _⟩ => ⟨S3200000x1, .i32⟩
  | .hbm, ⟨113, _⟩ => ⟨S100000x64, .f32⟩
  | .hbm, ⟨114, _⟩ => ⟨S1, .f32⟩
  | .hbm, ⟨115, _⟩ => ⟨S_, .f32⟩
  | .hbm, ⟨116, _⟩ => ⟨S100000x64, .f32⟩
  | .hbm, ⟨117, _⟩ => ⟨S100000x64, .f32⟩
  | .hbm, ⟨118, _⟩ => ⟨S100000x64, .f32⟩
  | .hbm, ⟨119, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S4000x64, .f32⟩
  | .local _ .vmem, ⟨9, _⟩ => ⟨S4000x64, .f32⟩
  | .local _ .vmem, ⟨10, _⟩ => ⟨S4000x64, .f32⟩
  | .local _ .vmem, ⟨11, _⟩ => ⟨S4000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_c_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c_8 : Ref sig .tc := ⟨.hbm, 78, rfl⟩
abbrev main_v59 : Ref sig .tc := ⟨.hbm, 79, rfl⟩
abbrev main_v60 : Ref sig .tc := ⟨.hbm, 80, rfl⟩
abbrev main_c_9 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_c_11 : Ref sig .tc := ⟨.hbm, 99, rfl⟩
abbrev main_v77 : Ref sig .tc := ⟨.hbm, 100, rfl⟩
abbrev main_v78 : Ref sig .tc := ⟨.hbm, 101, rfl⟩
abbrev main_c_12 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_13 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  shapeCasts_S256_S1x256 : S256.ShapeCasts S1x256
  shapeCasts_S64_S1x64 : S64.ShapeCasts S1x64
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  reduces_S4000x64_S4000 : S4000x64.Reduces [1] S4000
  shapeCasts_S4000_S4000x1 : S4000.ShapeCasts S4000x1
  broadcasts_S4000x1_S4000x64 : S4000x1.Broadcasts S4000x64
  dot_S2000x512_S512x256_S2000x256_1_0_0_1_n_n_wf : DotDims.WF S2000x512 S512x256 S2000x256 [1] [0] [0] [1] [] []
  dot_S2000x256_S256x64_S2000x64_1_0_0_1_n_n_wf : DotDims.WF S2000x256 S256x64 S2000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S100000x64.size a
  hwx1_1 : ∀ i : grid1.Coords, EltTy.bits .f32 = 32 ∨ (Rect.block (s := S100000x64) S4000x64.size (cc1_transform_1 i) (hinb1_1 i)).WholeWords (EltTy.packing .f32)

variable [Facts₀]

def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def dot_S2000x256_S256x64_S2000x64_1_0_0_1_n_n : DotDims S2000x256 S256x64 S2000x64 where
  lhsContracting := [1]
  rhsContracting := [0]
  lhsNonContracting := [0]
  rhsNonContracting := [1]
  lhsBatch := []
  rhsBatch := []
  wf := dot_S2000x256_S256x64_S2000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v93) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v94) S4000x64.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x256 : Shape := ⟨2, ![512, 256]⟩
abbrev S256 : Shape := ⟨1, ![256]⟩
abbrev S256x64 : Shape := ⟨2, ![256, 64]⟩
abbrev S64 : Shape := ⟨1, ![64]⟩
abbrev S5 : Shape := ⟨1, ![5]⟩
abbrev S100000x256 : Shape := ⟨2, ![100000, 256]⟩
abbrev S1x256 : Shape := ⟨2, ![1, 256]⟩
abbrev S_ : Shape := ⟨0, ![]⟩
abbrev S100000x64 : Shape := ⟨2, ![100000, 64]⟩
abbrev S1x64 : Shape := ⟨2, ![1, 64]⟩
abbrev S3200000x1 : Shape := ⟨2, ![3200000, 1]⟩
abbrev S3200000x64 : Shape := ⟨2, ![3200000, 64]⟩
abbrev S1 : Shape := ⟨1, ![1]⟩
abbrev S100000 : Shape := ⟨1, ![100000]⟩
abbrev S100000x1 : Shape := ⟨2, ![100000, 1]⟩

abbrev nBuf : Space → Nat
  | .hbm => 142
  | .vmem => 0
  | .smem => 0
  | _ => 0

abbrev hbmTy0_0 (i : Nat) : BufTy := match i % 128 with
  | 0 => ⟨S100000x512, .f32⟩
  | 1 => ⟨S3200000, .i32⟩
  | 2 => ⟨S3200000, .i32⟩
  | 3 => ⟨S3200000, .f32⟩
  | 4 => ⟨S512x256, .f32⟩
  | 5 => ⟨S256, .f32⟩
  | 6 => ⟨S256x64, .f32⟩
  | 7 => ⟨S64, .f32⟩
  | 8 => ⟨S5, .f32⟩
  | 9 => ⟨S100000x256, .f32⟩
  | 10 => ⟨S1x256, .f32⟩
  | 11 => ⟨S100000x256, .f32⟩
  | 12 => ⟨S100000x256, .f32⟩
  | 13 => ⟨S_, .f32⟩
  | 14 => ⟨S100000x256, .f32⟩
  | 15 => ⟨S100000x256, .f32⟩
  | 16 => ⟨S100000x64, .f32⟩
  | 17 => ⟨S1x64, .f32⟩
  | 18 => ⟨S100000x64, .f32⟩
  | 19 => ⟨S100000x64, .f32⟩
  | 20 => ⟨S_, .f32⟩
  | 21 => ⟨S100000x64, .f32⟩
  | 22 => ⟨S3200000x1, .f32⟩
  | 23 => ⟨S_, .i32⟩
  | 24 => ⟨S3200000, .i32⟩
  | 25 => ⟨S3200000, .i1⟩
  | 26 => ⟨S_, .i32⟩
  | 27 => ⟨S3200000, .i32⟩
  | 28 => ⟨S3200000, .i32⟩
  | 29 => ⟨S3200000, .i32⟩
  | 30 => ⟨S3200000x1, .i32⟩
  | 31 => ⟨S3200000x64, .f32⟩
  | 32 => ⟨S3200000x64, .f32⟩
  | 33 => ⟨S3200000x64, .f32⟩
  | 34 => ⟨S_, .f32⟩
  | 35 => ⟨S100000x64, .f32⟩
  | 36 => ⟨S3200000x1, .i32⟩
  | 37 => ⟨S100000x64, .f32⟩
  | 38 => ⟨S1, .f32⟩
  | 39 => ⟨S_, .f32⟩
  | 40 => ⟨S100000x64, .f32⟩
  | 41 => ⟨S100000x64, .f32⟩
  | 42 => ⟨S100000x64, .f32⟩
  | 43 => ⟨S3200000x1, .f32⟩
  | 44 => ⟨S_, .i32⟩
  | 45 => ⟨S3200000, .i32⟩
  | 46 => ⟨S3200000, .i1⟩
  | 47 => ⟨S_, .i32⟩
  | 48 => ⟨S3200000, .i32⟩
  | 49 => ⟨S3200000, .i32⟩
  | 50 => ⟨S3200000, .i32⟩
  | 51 => ⟨S3200000x1, .i32⟩
  | 52 => ⟨S3200000x64, .f32⟩
  | 53 => ⟨S3200000x64, .f32⟩
  | 54 => ⟨S3200000x64, .f32⟩
  | 55 => ⟨S_, .f32⟩
  | 56 => ⟨S100000x64, .f32⟩
  | 57 => ⟨S3200000x1, .i32⟩
  | 58 => ⟨S100000x64, .f32⟩
  | 59 => ⟨S1, .f32⟩
  | 60 => ⟨S_, .f32⟩
  | 61 => ⟨S100000x64, .f32⟩
  | 62 => ⟨S100000x64, .f32⟩
  | 63 => ⟨S100000x64, .f32⟩
  | 64 => ⟨S3200000x1, .f32⟩
  | 65 => ⟨S_, .i32⟩
  | 66 => ⟨S3200000, .i32⟩
  | 67 => ⟨S3200000, .i1⟩
  | 68 => ⟨S_, .i32⟩
  | 69 => ⟨S3200000, .i32⟩
  | 70 => ⟨S3200000, .i32⟩
  | 71 => ⟨S3200000, .i32⟩
  | 72 => ⟨S3200000x1, .i32⟩
  | 73 => ⟨S3200000x64, .f32⟩
  | 74 => ⟨S3200000x64, .f32⟩
  | 75 => ⟨S3200000x64, .f32⟩
  | 76 => ⟨S_, .f32⟩
  | 77 => ⟨S100000x64, .f32⟩
  | 78 => ⟨S3200000x1, .i32⟩
  | 79 => ⟨S100000x64, .f32⟩
  | 80 => ⟨S1, .f32⟩
  | 81 => ⟨S_, .f32⟩
  | 82 => ⟨S100000x64, .f32⟩
  | 83 => ⟨S100000x64, .f32⟩
  | 84 => ⟨S100000x64, .f32⟩
  | 85 => ⟨S3200000x1, .f32⟩
  | 86 => ⟨S_, .i32⟩
  | 87 => ⟨S3200000, .i32⟩
  | 88 => ⟨S3200000, .i1⟩
  | 89 => ⟨S_, .i32⟩
  | 90 => ⟨S3200000, .i32⟩
  | 91 => ⟨S3200000, .i32⟩
  | 92 => ⟨S3200000, .i32⟩
  | 93 => ⟨S3200000x1, .i32⟩
  | 94 => ⟨S3200000x64, .f32⟩
  | 95 => ⟨S3200000x64, .f32⟩
  | 96 => ⟨S3200000x64, .f32⟩
  | 97 => ⟨S_, .f32⟩
  | 98 => ⟨S100000x64, .f32⟩
  | 99 => ⟨S3200000x1, .i32⟩
  | 100 => ⟨S100000x64, .f32⟩
  | 101 => ⟨S1, .f32⟩
  | 102 => ⟨S_, .f32⟩
  | 103 => ⟨S100000x64, .f32⟩
  | 104 => ⟨S100000x64, .f32⟩
  | 105 => ⟨S100000x64, .f32⟩
  | 106 => ⟨S3200000x1, .f32⟩
  | 107 => ⟨S_, .i32⟩
  | 108 => ⟨S3200000, .i32⟩
  | 109 => ⟨S3200000, .i1⟩
  | 110 => ⟨S_, .i32⟩
  | 111 => ⟨S3200000, .i32⟩
  | 112 => ⟨S3200000, .i32⟩
  | 113 => ⟨S3200000, .i32⟩
  | 114 => ⟨S3200000x1, .i32⟩
  | 115 => ⟨S3200000x64, .f32⟩
  | 116 => ⟨S3200000x64, .f32⟩
  | 117 => ⟨S3200000x64, .f32⟩
  | 118 => ⟨S_, .f32⟩
  | 119 => ⟨S100000x64, .f32⟩
  | 120 => ⟨S3200000x1, .i32⟩
  | 121 => ⟨S100000x64, .f32⟩
  | 122 => ⟨S1, .f32⟩
  | 123 => ⟨S_, .f32⟩
  | 124 => ⟨S100000x64, .f32⟩
  | 125 => ⟨S100000x64, .f32⟩
  | 126 => ⟨S100000x64, .f32⟩
  | 127 => ⟨S_, .f32⟩
  | _ => ⟨S100000x512, .f32⟩

abbrev hbmTy0_1 (i : Nat) : BufTy := match i % 128 with
  | 0 => ⟨S100000, .f32⟩
  | 1 => ⟨S_, .f32⟩
  | 2 => ⟨S100000, .f32⟩
  | 3 => ⟨S100000, .f32⟩
  | 4 => ⟨S100000x1, .f32⟩
  | 5 => ⟨S100000x64, .f32⟩
  | 6 => ⟨S100000x64, .f32⟩
  | 7 => ⟨S100000x64, .f32⟩
  | 8 => ⟨S_, .f32⟩
  | 9 => ⟨S100000, .f32⟩
  | 10 => ⟨S100000x1, .f32⟩
  | 11 => ⟨S100000x1, .f32⟩
  | 12 => ⟨S100000x64, .f32⟩
  | 13 => ⟨S100000x64, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_c_0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_2 : Ref sig .tc := ⟨.hbm, 44, rfl⟩
abbrev main_v29 : Ref sig .tc := ⟨.hbm, 45, rfl⟩
abbrev main_v30 : Ref sig .tc := ⟨.hbm, 46, rfl⟩
abbrev main_c_3 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_c_5 : Ref sig .tc := ⟨.hbm, 65, rfl⟩
abbrev main_v47 : Ref sig .tc := ⟨.hbm, 66, rfl⟩
abbrev main_v48 : Ref sig .tc := ⟨.hbm, 67, rfl⟩
abbrev main_c_6 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_7 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_8 : Ref sig .tc := ⟨.hbm, 86, rfl⟩
abbrev main_v65 : Ref sig .tc := ⟨.hbm, 87, rfl⟩
abbrev main_v66 : Ref sig .tc := ⟨.hbm, 88, rfl⟩
abbrev main_c_9 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_10 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_11 : Ref sig .tc := ⟨.hbm, 107, rfl⟩
abbrev main_v83 : Ref sig .tc := ⟨.hbm, 108, rfl⟩
abbrev main_v84 : Ref sig .tc := ⟨.hbm, 109, rfl⟩
abbrev main_c_12 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_13 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_call1_cst : Ref sig .tc := ⟨.hbm, 127, rfl⟩
abbrev main_call1_v0 : Ref sig .tc := ⟨.hbm, 128, rfl⟩
abbrev main_call1_cst_0 : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_v6 : Ref sig .tc := ⟨.hbm, 135, rfl⟩
abbrev main_call1_cst_1 : Ref sig .tc := ⟨.hbm, 136, rfl⟩
abbrev main_call1_v7 : Ref sig .tc := ⟨.hbm, 137, rfl⟩
abbrev main_call1_v8 : Ref sig .tc := ⟨.hbm, 138, rfl⟩
abbrev main_call1_v9 : Ref sig .tc := ⟨.hbm, 139, rfl⟩
abbrev main_call1_v10 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  slices_S5_S1_0 : S5.Slices ![0] S1
  shapeCasts_S1_S_ : S1.ShapeCasts S_
  slices_S5_S1_1 : S5.Slices ![1] S1
  slices_S5_S1_2 : S5.Slices ![2] S1
  slices_S5_S1_3 : S5.Slices ![3] S1
  slices_S5_S1_4 : S5.Slices ![4] S1
  reducesTo_S100000x64_S100000_d1 : S100000x64.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  dot_S100000x512_S512x256_S100000x256_1_0_0_1_n_n_wf : DotDims.WF S100000x512 S512x256 S100000x256 [1] [0] [0] [1] [] []
  dot_S100000x256_S256x64_S100000x64_1_0_0_1_n_n_wf : DotDims.WF S100000x256 S256x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x64_S100000x64_1_0_0_1_n_n : DotDims S100000x256 S256x64 S100000x64 where
  lhsContracting := [1]
  rhsContracting := [0]
  lhsNonContracting := [0]
  rhsNonContracting := [1]
  lhsBatch := []
  rhsBatch := []
  wf := dot_S100000x256_S256x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.KernelRun.lean ====
/-
  The kernel program's run, with what its result buffer ends holding NAMED.

  @main of the kernel program is four segments: a short host stretch (two reshapes of the bias vectors), the
  pipelined region of the dense layers, the long host stretch of the five hops, and the pipelined region of the
  row-wise log-softmax. The buffer contents at the segment boundaries form a fold from the launch memory:
  a host stretch rewrites the buffers its operations write, a region leaves its output array at what its grid
  points' write-backs leave and every other buffer alone. Every weakly fair execution terminates, and in the
  final state every buffer that no region scopes holds the last boundary's contents. Reading that at the result
  buffer names the result; reading it at an argument buffer, through the fold back to the launch, says the
  argument is unchanged.
-/
import proofs.«111577_j53523882443605_1_alg».proof.Proof.Gen.KernelIdeal.Frame

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, and whatever follows from "every unscoped buffer of every core
    ends at the last boundary's contents" holds of the final state. -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W4 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no core carries a ghost resource of its own
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      -- the first thread state: the unscoped buffers at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      -- the last thread state holds every unscoped buffer at the last boundary's contents: read them all
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := hQ)

/-- The run with the result named: the result buffer ends at the last boundary's contents there, which is what
    the log-softmax region's write-backs leave in its output array; each argument ends as launched. -/
theorem run_named : θ_run defs (onTc (τ := τ) (main (F := F))) ⟨m, fun _ => 0, ρ⟩ (fun r => ∀ c : Dev nD,
      r.2.mem ((c.tc : Thread nD τ).loc main_v94) = (dat1 (V3 m ρ) c).arrAt 1 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_reads m ρ (fun s h c =>
    ⟨(h c _ (mem_uc main_v94 (by decide))).trans (W4_arr m ρ c 1),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c)⟩)

end Cert.KernelIdeal.Hand

end
-- ==== Proof.KernelHead.lean ====
/-
  The kernel program's short host stretch: two reshapes.

  Before the dense region the host lays each bias vector down as a one-row matrix. From any buffer contents the
  stretch leaves those two reshapes and writes nothing else, so every argument is read as it stood.
-/
import proofs.«111577_j53523882443605_1_alg».proof.Proof.Gen.KernelIdeal.Launch
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

/-- The first bias as a one-row matrix. -/
theorem head_b1 (W : Valuation τ sig (Elt F)) :
    StableHlo.after (hostOps0 (F := F)) W (Proc.devRef .tc main_v0)
      = shapeCast S1x256 (W (Proc.devRef .tc main_arg5)) shapeCasts_S256_S1x256 := by
  dsimp only [hostOps0]
  after_results
  rfl

/-- The second bias as a one-row matrix. -/
theorem head_b2 (W : Valuation τ sig (Elt F)) :
    StableHlo.after (hostOps0 (F := F)) W (Proc.devRef .tc main_v1)
      = shapeCast S1x64 (W (Proc.devRef .tc main_arg7)) shapeCasts_S64_S1x64 := by
  dsimp only [hostOps0]
  after_results
  rfl

/-- The stretch writes no argument. -/
theorem head_keeps (W : Valuation τ sig (Elt F)) (r : Ref sig .tc) (h0 : r ≠ main_v0) (h1 : r ≠ main_v1) :
    StableHlo.after (hostOps0 (F := F)) W (Proc.devRef .tc r) = W (Proc.devRef .tc r) := by
  dsimp only [hostOps0]
  simp only [after_cons, after_nil]
  rw [reshape_result_ne (h := h1), reshape_result_ne (h := h0)]

end Cert.KernelIdeal.Hand

end
-- ==== Proof.Spec.lean ====
/-
  What the program computes, stated on arrays of extended reals with no program in sight.

  A node's class scores come from two dense layers with a rectifier between them; after the propagation
  hops (which both programs spell with the same host operations, so they are never opened here) each row
  is normalised by the logarithm of its softmax.

  `denseAt`   entry (p, q) of  max(x · W1 + b1, 0) · W2 + b2 : a sum over the 256 hidden units of the rectified
              inner product of row p of x with column j of W1, times W2 (j, q). The two bias vectors are taken
              as functions of the coordinate, so that a bias kept as a 1-row matrix and a bias kept as a vector
              give the same expression.
  `rowMax`    the largest entry of a row, folded from -∞.
  `lsmAt`     entry (p, q) of the row-wise log-softmax in its shifted form
              (v(p,q) − M) − log Σ_k exp(v(p,k) − M),  M the row's largest entry.

  Both depend on the array only through ONE ROW of it (`denseAt_congr`, `lsmAt_congr`): that is what lets a
  kernel compute them on blocks of rows, and it is the whole reason the blocked kernel and the whole-array
  reference agree. Nothing here needs the entries to be finite.
-/
import Idealize.ShloMosaic.PureOps.Ideal.Laws
import Idealize.ShloMosaic.Lib.ValueIdx

noncomputable section

open scoped BigOperators

namespace Cert.Spec

open Idealize.ShloMosaic Idealize.ShloMosaic.ValueIdx

/-- Entry `(p, q)` of `max(x · W1 + b1, 0) · W2 + b2`, for `x` of any number of rows. -/
def denseAt {a : ℕ} (x : FVec Ideal ⟨2, ![a, 512]⟩ .f32) (W1 : FVec Ideal ⟨2, ![512, 256]⟩ .f32) (b1 : Fin 256 → EReal)
    (W2 : FVec Ideal ⟨2, ![256, 64]⟩ .f32) (b2 : Fin 64 → EReal) (p : Fin a) (q : Fin 64) : EReal :=
  (∑ j : Fin 256, max ((∑ k : Fin 512, x (ix2 p k) * W1 (ix2 k j)) + b1 j) (Ideal.ofBits .f32 0x00000000#32) * W2 (ix2 j q)) + b2 q

/-- The dense layers read one row of `x`: two arrays that agree on a row give the same entries there. -/
theorem denseAt_congr {a a' : ℕ} (x : FVec Ideal ⟨2, ![a, 512]⟩ .f32) (x' : FVec Ideal ⟨2, ![a', 512]⟩ .f32)
    (W1 : FVec Ideal ⟨2, ![512, 256]⟩ .f32) (b1 : Fin 256 → EReal) (W2 : FVec Ideal ⟨2, ![256, 64]⟩ .f32) (b2 : Fin 64 → EReal)
    (p : Fin a) (p' : Fin a') (q : Fin 64) (h : ∀ k : Fin 512, x (ix2 p k) = x' (ix2 p' k)) :
    denseAt x W1 b1 W2 b2 p q = denseAt x' W1 b1 W2 b2 p' q := by
  unfold denseAt
  simp only [h]

/-- The largest entry of row `p`, folded from `-∞` (the word `0xFF800000`). -/
def rowMax {a b : ℕ} (v : FVec Ideal ⟨2, ![a, b]⟩ .f32) (p : Fin a) : EReal :=
  (Finset.univ : Finset (Fin b)).fold max (Ideal.ofBits .f32 0xFF800000#32) fun k => v (ix2 p k)

/-- Entry `(p, q)` of the row-wise log-softmax, shifted by the row's largest entry. -/
def lsmAt {a b : ℕ} (v : FVec Ideal ⟨2, ![a, b]⟩ .f32) (p : Fin a) (q : Fin b) : EReal :=
  (v (ix2 p q) - rowMax v p) - Ideal.log (∑ k : Fin b, Ideal.exp (v (ix2 p k) - rowMax v p))

/-- The log-softmax of a row reads that row only. -/
theorem lsmAt_congr {a a' b : ℕ} (v : FVec Ideal ⟨2, ![a, b]⟩ .f32) (v' : FVec Ideal ⟨2, ![a', b]⟩ .f32)
    (p : Fin a) (p' : Fin a') (q : Fin b) (h : ∀ k : Fin b, v (ix2 p k) = v' (ix2 p' k)) :
    lsmAt v p q = lsmAt v' p' q := by
  unfold lsmAt rowMax
  simp only [h]

/-- The dense layers' scores for every node: `denseAt` at each index, the biases given as vectors. -/
def dense (x : FVec Ideal ⟨2, ![100000, 512]⟩ .f32) (W1 : FVec Ideal ⟨2, ![512, 256]⟩ .f32) (b1 : FVec Ideal ⟨1, ![256]⟩ .f32)
    (W2 : FVec Ideal ⟨2, ![256, 64]⟩ .f32) (b2 : FVec Ideal ⟨1, ![64]⟩ .f32) : FVec Ideal ⟨2, ![100000, 64]⟩ .f32 :=
  fun i => denseAt x W1 (fun j => b1 (ix1 j)) W2 (fun j => b2 (ix1 j)) (i 0) (i 1)

/-- The row-wise log-softmax of a whole array: `lsmAt` at each index. -/
def lsm {a b : ℕ} (v : FVec Ideal ⟨2, ![a, b]⟩ .f32) : FVec Ideal ⟨2, ![a, b]⟩ .f32 :=
  fun i => lsmAt v (i 0) (i 1)

/-- The word `0xFF800000` is `-∞`, the bottom of the extended reals. -/
theorem negInf_eq_bot : Ideal.ofBits .f32 0xFF800000#32 = (⊥ : EReal) := by
  simp [Ideal.ofBits, Ideal.ieee]

/-- A maximum against `-∞` is the other argument: the reference's extra `maximum(-∞, ·)` changes nothing. -/
theorem max_negInf (m : EReal) : max (Ideal.ofBits .f32 0xFF800000#32) m = m := by
  rw [negInf_eq_bot]; exact max_bot_left m

/-- A sum started from the zero word is the sum. -/
theorem zero_add_sum (s : EReal) : Ideal.ofBits .f32 0x00000000#32 + s = s := by
  rw [Ideal.ofBits_zero_f32, zero_add]

end Cert.Spec

end
-- ==== Proof.Hops.lean ====
/-
  The five propagation hops, as ONE function of the scores going in.

  A hop sends every node the weighted sum of its in-neighbours' rows: for each edge e the row `h[col e]` is
  gathered (a negative column index wrapped round by the number of nodes first), scaled by the edge's weight,
  and added into row `row e` of an all-zero array. The result of the whole stretch is
      0 + d₀·A h + d₁·A² h + d₂·A³ h + d₃·A⁴ h + d₄·A⁵ h ,
  A one hop and d the five mixing coefficients. Both programs spell this stretch with the same host operations
  in the same order, so it is carried through the proof as this one function and never opened: whatever it
  computes, it computes the same thing from equal arguments.

  The function is written over the kernel program's vocabulary (its shapes and dimension records).
-/
import proofs.«111577_j53523882443605_1_alg».proof.Proof.Gen.KernelIdeal
import proofs.«111577_j53523882443605_1_alg».proof.Proof.Spec

noncomputable section

namespace Cert.KernelIdeal.Hops

open Cert.KernelIdeal Cert.KernelIdeal.Gen Idealize.ShloMosaic

variable {F : FTy → Type} [FloatOps F]

/-- Every edge's column index as a one-column array, a negative index wrapped round by the number of nodes. -/
def wrapped (col : (⟨S3200000, .i32⟩ : BufTy).Contents (Elt F)) : (⟨S3200000x1, .i32⟩ : BufTy).Contents (Elt F) :=
  broadcastInDim S3200000x1 ![0] bcast_S3200000_S3200000x1_0
    (select (cmpi .slt col (broadcastInDim S3200000 ![] bcast_S_S3200000 (constantI S_ 32 0#32)))
      (addi col (broadcastInDim S3200000 ![] bcast_S_S3200000 (constantI S_ 32 100000#32))) col)

/-- Every edge's weight repeated along the 64 classes. -/
def weights (w : (⟨S3200000, .f32⟩ : BufTy).Contents (Elt F)) : (⟨S3200000x64, .f32⟩ : BufTy).Contents (Elt F) :=
  broadcastInDim S3200000x64 ![0, 1] bcast_S3200000x1_S3200000x64_0_1 (broadcastInDim S3200000x1 ![0] bcast_S3200000_S3200000x1_0 w)

/-- The all-zero array of scores. -/
def zeros : (⟨S100000x64, .f32⟩ : BufTy).Contents (Elt F) :=
  broadcastInDim S100000x64 ![] bcast_S_S100000x64 (constant (F := F) S_ .f32 0x00000000#32)

/-- One hop: gather each edge's source row, scale it by the edge's weight, add it into the edge's target row. -/
def hop (h : (⟨S100000x64, .f32⟩ : BufTy).Contents (Elt F)) (row col : (⟨S3200000, .i32⟩ : BufTy).Contents (Elt F))
    (w : (⟨S3200000, .f32⟩ : BufTy).Contents (Elt F)) : (⟨S100000x64, .f32⟩ : BufTy).Contents (Elt F) :=
  Host.scatterAdd scatter_S100000x64_S3200000x1_S3200000x64_1_0_0_1 (zeros (F := F))
    (broadcastInDim S3200000x1 ![0] bcast_S3200000_S3200000x1_0 row)
    (mulf (weights w) (Host.gather gather_S100000x64_S3200000x1_S3200000x64_1_0_n_n_0_1_164 h (wrapped col)))

/-- The `k`-th mixing coefficient repeated over the whole array of scores. -/
def coeff (k : ℕ) (hk : S5.Slices ![k] S1) (d : (⟨S5, .f32⟩ : BufTy).Contents (Elt F)) : (⟨S100000x64, .f32⟩ : BufTy).Contents (Elt F) :=
  broadcastInDim S100000x64 ![] bcast_S_S100000x64 (shapeCast S_ (extractStridedSlice S1 ![k] d hk) shapeCasts_S1_S_)

/-- The whole stretch: the five hops' results mixed by the five coefficients, summed onto zero in order. -/
def hops (h : (⟨S100000x64, .f32⟩ : BufTy).Contents (Elt F)) (row col : (⟨S3200000, .i32⟩ : BufTy).Contents (Elt F))
    (w : (⟨S3200000, .f32⟩ : BufTy).Contents (Elt F)) (d : (⟨S5, .f32⟩ : BufTy).Contents (Elt F)) : (⟨S100000x64, .f32⟩ : BufTy).Contents (Elt F) :=
  addf (addf (addf (addf (addf (zeros (F := F))
    (mulf (coeff 0 slices_S5_S1_0 d) (hop h row col w)))
    (mulf (coeff 1 slices_S5_S1_1 d) (hop (hop h row col w) row col w)))
    (mulf (coeff 2 slices_S5_S1_2 d) (hop (hop (hop h row col w) row col w) row col w)))
    (mulf (coeff 3 slices_S5_S1_3 d) (hop (hop (hop (hop h row col w) row col w) row col w) row col w)))
    (mulf (coeff 4 slices_S5_S1_4 d) (hop (hop (hop (hop (hop h row col w) row col w) row col w) row col w) row col w))

/-- What both programs return, as one function of the nine arguments: the dense layers' scores, propagated by the
    five hops, each row then normalised by the logarithm of its softmax. -/
def out (x : (⟨S100000x512, .f32⟩ : BufTy).Contents (Elt Ideal)) (row col : (⟨S3200000, .i32⟩ : BufTy).Contents (Elt Ideal))
    (w : (⟨S3200000, .f32⟩ : BufTy).Contents (Elt Ideal)) (W1 : (⟨S512x256, .f32⟩ : BufTy).Contents (Elt Ideal))
    (b1 : (⟨S256, .f32⟩ : BufTy).Contents (Elt Ideal)) (W2 : (⟨S256x64, .f32⟩ : BufTy).Contents (Elt Ideal))
    (b2 : (⟨S64, .f32⟩ : BufTy).Contents (Elt Ideal)) (d : (⟨S5, .f32⟩ : BufTy).Contents (Elt Ideal)) :
    (⟨S100000x64, .f32⟩ : BufTy).Contents (Elt Ideal) :=
  Cert.Spec.lsm (hops (F := Ideal) (Cert.Spec.dense x W1 b1 W2 b2) row col w d)

end Cert.KernelIdeal.Hops

end
-- ==== Proof.KernelMid.lean ====
/-
  The kernel program's long host stretch is the five hops.

  Between its two pipelined regions the kernel program runs 107 host operations. From ANY buffer contents they
  leave, in the buffer the log-softmax region reads, the function `hops` of five buffers' contents at the stretch's
  entry: the dense region's output array, the two edge-index arrays, the edge weights and the five mixing
  coefficients. The stretch writes none of those five, so each is read as it stood at entry.
-/
import proofs.«111577_j53523882443605_1_alg».proof.Proof.Gen.KernelIdeal.Launch
import proofs.«111577_j53523882443605_1_alg».proof.Proof.Hops
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable {F : FTy → Type} [FloatOps F]

set_option maxRecDepth 16384 in
set_option maxHeartbeats 8000000 in
/-- From any contents `W`, the stretch leaves `hops` of the entry contents in the log-softmax region's input array. -/
theorem mid (W : Valuation τ sig (Elt F)) :
    StableHlo.after (hostOps1 (F := F)) W (Proc.devRef .tc main_v93)
      = Hops.hops (W (Proc.devRef .tc main_v2)) (W (Proc.devRef .tc main_arg1)) (W (Proc.devRef .tc main_arg2))
          (W (Proc.devRef .tc main_arg3)) (W (Proc.devRef .tc main_arg8)) := by
  dsimp only [hostOps1]
  after_results_simp
  rfl

end Cert.KernelIdeal.Hand

end
-- ==== Proof.LibRowMax.lean ====
/-
  The largest entry along the last axis, read at an index.

  At the ideal instance a float is an extended real and a maximum is the exact fold of `max` in any order. For an
  `[a, b]` matrix, a kernel's `vector.multi_reduction <maximumf>` over axis 1 started from the word of `-∞`, read at row
  `p`, is the fold of `max` from that word's value over the row's entries (`laneMax_row`). For an `[a, b, c]` array,
  the host's `reduce` with a `maximum` body over axis 2, read at `(p, q)`, is the fold of `max` from the initial value
  over the entries `(p, q, k)` (`hostMax_last3`); `lift_last3` is the index fact under it: over `(p, q)` the index
  with the dropped last coordinate `k` put back is `(p, q, k)`.
-/
import Idealize.ShloMosaic.Lib.IdealHost

namespace Cert.LibRowMax

open Idealize.ShloMosaic Idealize.ShloMosaic.ValueIdx

variable {a b c : ℕ}

/-- Over row `p` of an `[a, b]` array, the index whose dropped (column) coordinate is `k` is `(p, k)`. -/
theorem lift_row (h : (⟨2, ![a, b]⟩ : Shape).Reduces [1] ⟨1, ![a]⟩) (p : Fin a) (k : Fin b) :
    h.lift (ix1 p) k = ix2 p k := by
  funext d
  match d with
  | ⟨0, _⟩ => exact Fin.ext rfl
  | ⟨1, _⟩ => exact Fin.ext rfl

/-- A kernel's f32 maximum along the columns started from the word of `-∞`, read at row `p`: the fold of `max` from
    that word's value over the row's entries. -/
theorem laneMax_row (v : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ v 0xFF800000#32 h hφ hacc (ix1 p)
      = (Finset.univ : Finset (Fin b)).fold max (Ideal.ofBits .f32 0xFF800000#32) fun k => v (ix2 p k) := by
  refine (multiReduction_maximumf_eq_fold v 0xFF800000#32 h hφ hacc (ix1 p)).trans ?_
  refine (h.fold_filter_drop_single _ _ v (ix1 p)).trans ?_
  exact congrArg (fun f => Finset.fold max (Ideal.ofBits .f32 0xFF800000#32) f (Finset.univ : Finset (Fin b)))
    (funext fun k => congrArg v (lift_row h p k))

/-- Over `(p, q)` of an `[a, b, c]` array reduced along its last axis, the index whose dropped coordinate is `k`
    is `(p, q, k)`. -/
theorem lift_last3 (h : (⟨3, ![a, b, c]⟩ : Shape).Reduces [2] ⟨2, ![a, b]⟩) (p : Fin a) (q : Fin b) (k : Fin c) :
    h.lift (ix2 p q) k = ix3 p q k := by
  funext d
  match d with
  | ⟨0, _⟩ => exact Fin.ext rfl
  | ⟨1, _⟩ => exact Fin.ext rfl
  | ⟨2, _⟩ => exact Fin.ext rfl

/-- The host's `reduce` with a `maximum` body along the last axis of an `[a, b, c]` array, read at `(p, q)`: the
    fold of `max` from the initial value over the entries `(p, q, k)`. -/
theorem hostMax_last3 {u : Shape} (x : FVec Ideal ⟨3, ![a, b, c]⟩ .f32) (init : FVec Ideal u .f32)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) fun k => x (ix3 p q k) := by
  refine (Host.reduce_eq_fold_single (FloatOps.maximumf (F := Ideal) (φ := .f32)) x init h' h hu (ix2 p q)).trans ?_
  exact congrArg (fun f => Finset.fold max (init (Shape.Idx.first hu)) f (Finset.univ : Finset (Fin c)))
    (funext fun k => congrArg x (lift_last3 h p q k))

end Cert.LibRowMax
-- ==== Proof.LibRowSum.lean ====
/-
  Row sums read at a row.

  A sum along the columns of an `[a, b]` array, read at row `p`, is the sum over `k : Fin b` of the entries `(p, k)`:
  for a kernel's lane reduction `vector.multi_reduction <add>` over axis 1 started from the zero word (`laneSum_row`),
  and for the host's `reduce` with `add` over axis 1, which puts its initial value in front (`hostSum_row`).
  Both at the ideal instance, where a float sum is the exact sum of extended reals in any order.
  `lift_row` is the index fact under both: over row `p`, the index with column `k` put back in is `(p, k)`.
-/
import Idealize.ShloMosaic.Lib.IdealHost

namespace Cert.LibRowSum

open Idealize.ShloMosaic Idealize.ShloMosaic.ValueIdx

/-- Over row `p` of an `[a, b]` array, the index whose dropped (column) coordinate is `k` is `(p, k)`. -/
theorem lift_row {a b : ℕ} (h : (⟨2, ![a, b]⟩ : Shape).Reduces [1] ⟨1, ![a]⟩) (p : Fin a) (k : Fin b) :
    h.lift (ix1 p) k = ix2 p k := by
  funext c
  match c with
  | ⟨0, _⟩ => exact Fin.ext rfl
  | ⟨1, _⟩ => exact Fin.ext rfl

/-- A kernel's f32 lane sum over the columns, started from the zero word, read at row `p`: the sum of the row. -/
theorem laneSum_row {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (lift_row h p k))

/-- The host's float sum over the columns from the initial array `init`, read at row `p`: the initial value plus
    the sum of the row. -/
theorem hostSum_row {a b : ℕ} {u : Shape} {φ : FTy} (x : FVec Ideal ⟨2, ![a, b]⟩ φ) (init : u.Idx → Ideal φ)
    (h' : (⟨2, ![a, b]⟩ : Shape).ReducesTo [1] ⟨1, ![a]⟩) (hu : 0 < u.numel) (p : Fin a) :
    Host.reduceAdd x init h' hu (ix1 p) = init (Shape.Idx.first hu) + ∑ k : Fin b, x (ix2 p k) := by
  have h : (⟨2, ![a, b]⟩ : Shape).Reduces [1] ⟨1, ![a]⟩ := ⟨h'.1, Nat.one_pos, h'.2⟩
  refine (hostReduceAdd_apply x init h' hu (ix1 p)).trans ((Ideal.hostReduceAdd_single h' h x _ (ix1 p)).trans ?_)
  exact congrArg (init (Shape.Idx.first hu) + ·) (Finset.sum_congr rfl fun k _ => congrArg x (lift_row h p k))

end Cert.LibRowSum
-- ==== Proof.LibColumnCast.lean ====
/-
  A vector stood up as one column: the companion of the library's `shapeCast_a_1a_apply` (a vector laid down as one row).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`:
    row-major, position `i · 1 + u` of the column is position `i` of the vector. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.KernelBodies.lean ====
/-
  What each kernel body stores, read at one entry.

  The dense body works on a block of 2000 rows of x: its stored value at (p, q) is the specification's
  `denseAt` of that block — the two matrix products as sums over the contracted coordinate, the narrowing of the
  products' operands to a shorter float format the identity on the extended reals, the biases read from their
  one-row blocks at row 0.

  The log-softmax body works on a block of 4000 rows: its stored value at (p, q) is the specification's `lsmAt`
  of the block — the row's largest entry a fold of max from -∞, stood up as a column and repeated along the row;
  the sum of the shifted exponentials a sum over the row's 64 entries.
-/
import proofs.«111577_j53523882443605_1_alg».proof.Proof.Gen.KernelIdeal.Skeleton
import proofs.«111577_j53523882443605_1_alg».proof.Proof.Spec
import proofs.«111577_j53523882443605_1_alg».proof.Proof.LibRowMax
import proofs.«111577_j53523882443605_1_alg».proof.Proof.LibRowSum
import proofs.«111577_j53523882443605_1_alg».proof.Proof.LibColumnCast
import proofs.«111577_j53523882443605_1_alg».proof.Proof.LibColBroadcast
import proofs.«111577_j53523882443605_1_alg».proof.Proof.LibMatmulAt
import Idealize.ShloMosaic.Lib.Pipeline.Value
import Idealize.ShloMosaic.Lib.ValueIdx
import Idealize.ShloMosaic.Lib.ValueLayout

noncomputable section

open scoped BigOperators

namespace Cert.KernelIdeal.Bodies

open Cert.KernelIdeal Cert.KernelIdeal.Gen Idealize.ShloMosaic Idealize.ShloMosaic.ValueIdx

/-! ## Where the two products' operand indices sit -/

theorem d1_l0 (i : S2000x256.Idx) (q : dot_S2000x512_S512x256_S2000x256_1_0_0_1_n_n.contr.Idx) : (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem d1_l1 (i : S2000x256.Idx) (q : dot_S2000x512_S512x256_S2000x256_1_0_0_1_n_n.contr.Idx) : (dot_S2000x512_S512x256_S2000x256_1_0_0_1_n_n.lhsIdx i q 1).val = (q ⟨0, by decide⟩).val :=
  dot_S2000x512_S512x256_S2000x256_1_0_0_1_n_n.lhsIdx_val_of_single rfl i q
theorem d1_r0 (i : S2000x256.Idx) (q : dot_S2000x512_S512x256_S2000x256_1_0_0_1_n_n.contr.Idx) : (dot_S2000x512_S512x256_S2000x256_1_0_0_1_n_n.rhsIdx i q 0).val = (q ⟨0, by decide⟩).val :=
  dot_S2000x512_S512x256_S2000x256_1_0_0_1_n_n.rhsIdx_val_of_single rfl i q
theorem d1_r1 (i : S2000x256.Idx) (q : dot_S2000x512_S512x256_S2000x256_1_0_0_1_n_n.contr.Idx) : (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

theorem d2_l0 (i : S2000x64.Idx) (q : dot_S2000x256_S256x64_S2000x64_1_0_0_1_n_n.contr.Idx) : (dot_S2000x256_S256x64_S2000x64_1_0_0_1_n_n.lhsIdx i q 0).val = (i 0).val := by
  unfold DotDims.lhsIdx
  rw [dif_neg (show ¬(0 : Fin S2000x256.rank) ∈ dot_S2000x256_S256x64_S2000x64_1_0_0_1_n_n.lhsBatch by decide), dif_pos (show (0 : Fin S2000x256.rank) ∈ dot_S2000x256_S256x64_S2000x64_1_0_0_1_n_n.lhsNonContracting by decide)]
  rfl
theorem d2_l1 (i : S2000x64.Idx) (q : dot_S2000x256_S256x64_S2000x64_1_0_0_1_n_n.contr.Idx) : (dot_S2000x256_S256x64_S2000x64_1_0_0_1_n_n.lhsIdx i q 1).val = (q ⟨0, by decide⟩).val :=
  dot_S2000x256_S256x64_S2000x64_1_0_0_1_n_n.lhsIdx_val_of_single rfl i q
theorem d2_r0 (i : S2000x64.Idx) (q : dot_S2000x256_S256x64_S2000x64_1_0_0_1_n_n.contr.Idx) : (dot_S2000x256_S256x64_S2000x64_1_0_0_1_n_n.rhsIdx i q 0).val = (q ⟨0, by decide⟩).val :=
  dot_S2000x256_S256x64_S2000x64_1_0_0_1_n_n.rhsIdx_val_of_single rfl i q
theorem d2_r1 (i : S2000x64.Idx) (q : dot_S2000x256_S256x64_S2000x64_1_0_0_1_n_n.contr.Idx) : (dot_S2000x256_S256x64_S2000x64_1_0_0_1_n_n.rhsIdx i q 1).val = (i 1).val := by
  unfold DotDims.rhsIdx
  rw [dif_neg (show ¬(1 : Fin S256x64.rank) ∈ dot_S2000x256_S256x64_S2000x64_1_0_0_1_n_n.rhsBatch by decide), dif_pos (show (1 : Fin S256x64.rank) ∈ dot_S2000x256_S256x64_S2000x64_1_0_0_1_n_n.rhsNonContracting by decide)]
  rfl

/-! ## The dense body -/

/-- Entry `(p, q)` of what the dense body stores: `denseAt` of the block of x, the biases read at row 0 of their
    one-row blocks. -/
theorem dense_pay (x0 : Vec Ideal S2000x512 .f32) (x1 : Vec Ideal S512x256 .f32) (x2 : Vec Ideal S1x256 .f32)
    (x3 : Vec Ideal S256x64 .f32) (x4 : Vec Ideal S1x64 .f32) (p : Fin 2000) (q : Fin 64) :
    k0_pay1 (F := Ideal) x0 x1 x2 x3 x4 (ix2 p q)
      = Cert.Spec.denseAt x0 x1 (fun j => x2 (ix2 (0 : Fin 1) j)) x3 (fun j => x4 (ix2 (0 : Fin 1) j)) p q := by
  unfold k0_pay1
  rw [shapeCast_self x2 shapeCasts_S1x256_S1x256, shapeCast_self x4 shapeCasts_S1x64_S1x64]
  rw [addf_apply, broadcastTo_1b_ab_apply,
    MatmulAt.matmul_zero_ix2 dot_S2000x256_S256x64_S2000x64_1_0_0_1_n_n rfl rfl d2_l0 d2_l1 d2_r0 d2_r1]
  unfold Cert.Spec.denseAt
  refine congrArg (· + x4 (ix2 (0 : Fin 1) q)) (Finset.sum_congr rfl fun j _ => ?_)
  rw [truncf_apply, truncf_apply, maximumf_apply, addf_apply, broadcastTo_1b_ab_apply,
    MatmulAt.matmul_zero_ix2 dot_S2000x512_S512x256_S2000x256_1_0_0_1_n_n rfl rfl d1_l0 d1_l1 d1_r0 d1_r1, broadcast_apply]
  rfl

/-! ## The log-softmax body -/

/-- A block's entry less its row's largest entry: the largest entry a fold of max along the row from -∞, cast to a
    column and repeated along the row. -/
theorem shifted_apply (x0 : FVec Ideal S4000x64 .f32) (p : Fin 4000) (k : Fin 64) :
    subf (F := Ideal) x0 (broadcastTo S4000x64 (shapeCast S4000x1 (multiReduction (F := Ideal) .maximumf [1] S4000 x0 0xFF800000#32
        reduces_S4000x64_S4000 (.inl rfl) rfl) shapeCasts_S4000_S4000x1) broadcasts_S4000x1_S4000x64) (ix2 p k)
      = x0 (ix2 p k) - Cert.Spec.rowMax x0 p := by
  rw [subf_apply, Cert.LibColBroadcast.broadcastTo_a1_ab_apply, Cert.LibColumnCast.shapeCast_a_a1_apply,
    Cert.LibRowMax.laneMax_row]
  rfl

/-- Entry `(p, q)` of what the log-softmax body stores: `lsmAt` of the block. -/
theorem lsm_pay (x0 : Vec Ideal S4000x64 .f32) (p : Fin 4000) (q : Fin 64) :
    k1_pay1 (F := Ideal) x0 (ix2 p q) = Cert.Spec.lsmAt x0 p q := by
  unfold k1_pay1
  dsimp only
  rw [shapeCast_self x0 shapeCasts_S4000x64_S4000x64]
  rw [subf_apply, shifted_apply, Cert.LibColBroadcast.broadcastTo_a1_ab_apply]
  rw [show ∀ (v : FVec Ideal S4000x1 .f32) (i : S4000x1.Idx), log v i = Ideal.log (v i) from fun _ _ => rfl]
  rw [Cert.LibColumnCast.shapeCast_a_a1_apply, Cert.LibRowSum.laneSum_row]
  unfold Cert.Spec.lsmAt
  refine congrArg (fun s => x0 (ix2 p q) - Cert.Spec.rowMax x0 p - Ideal.log s) (Finset.sum_congr rfl fun k _ => ?_)
  exact congrArg Ideal.exp (shifted_apply x0 p k)

end Cert.KernelIdeal.Bodies

end
-- ==== Proof.RegionArrays.lean ====
/-
  From blocks to arrays: what each pipelined region leaves in its output array.

  Both regions cut their operand into blocks of whole rows — 50 blocks of 2000 rows for the dense layers, 25
  blocks of 4000 rows for the log-softmax — and point t reads block t and writes block t. Block t's local row p is
  the array's row t·(rows per block) + p, and a local column is the array's column. The weights and the one-row
  biases are one block each, the same at every point. Since both bodies compute, in row p, a function of row p of
  their block alone (`denseAt_congr`, `lsmAt_congr`), what point t writes back is block t of ONE whole-array
  function; the 50 (25) blocks cover every row (the point covering row r is r / rows-per-block), so the output
  array ends holding that function.
-/
import proofs.«111577_j53523882443605_1_alg».proof.Proof.Gen.KernelIdeal.Frame
import proofs.«111577_j53523882443605_1_alg».proof.Proof.KernelBodies
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## The dense region -/

/-- The printed index maps of the dense region, decided over its 50 points: the block of x and the output block
    move with the point along the rows; the weights' and biases' blocks stay at the origin. -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The array row that local row `p` of block `t` is. -/
def row0 (t : Fin cfg0.N) (p : Fin 2000) : Fin 100000 :=
  ⟨t.val * 2000 + p.val, by have h : t.val < 50 := lt_of_lt_of_eq t.isLt N_0; have := p.isLt; omega⟩

/-- The block of x at point `t`, read at `(p, k)`: row `t·2000 + p` of x. -/
theorem blk_x (c : Dev nD) (t : Fin cfg0.N) (p : Fin 2000) (k : Fin 512) :
    iblk0 V c 0 t (ix2 p k) = V c main_arg0 (ix2 (row0 t p) k) := by
  obtain ⟨e0, e1, -⟩ := idx0 t
  show V c main_arg0 (((cfg0.win 0).blk t).view.emb (ix2 p k)) = V c main_arg0 (ix2 (row0 t p) k)
  refine congrArg (V c main_arg0) (funext fun a => Fin.ext ?_)
  match a with
    | ⟨0, _⟩ => show win0_0.index t (0 : Fin 2) * 2000 + 1 * p.val = t.val * 2000 + p.val; omega
    | ⟨1, _⟩ => show win0_0.index t (1 : Fin 2) * 512 + 1 * k.val = k.val; omega

/-- The first layer's weights: one block, the whole matrix. -/
theorem blk_W1 (c : Dev nD) (t : Fin cfg0.N) (k : Fin 512) (j : Fin 256) :
    iblk0 V c 1 t (ix2 k j) = V c main_arg4 (ix2 k j) := by
  obtain ⟨-, -, e0, e1, -⟩ := idx0 t
  show V c main_arg4 (((cfg0.win 1).blk t).view.emb (ix2 k j)) = V c main_arg4 (ix2 k j)
  refine congrArg (V c main_arg4) (funext fun a => Fin.ext ?_)
  match a with
    | ⟨0, _⟩ => show win0_1.index t (0 : Fin 2) * 512 + 1 * k.val = k.val; omega
    | ⟨1, _⟩ => show win0_1.index t (1 : Fin 2) * 256 + 1 * j.val = j.val; omega

/-- The first bias as a one-row matrix: one block. -/
theorem blk_b1 (c : Dev nD) (t : Fin cfg0.N) (j : Fin 256) :
    iblk0 V c 2 t (ix2 (0 : Fin 1) j) = V c main_v0 (ix2 (0 : Fin 1) j) := by
  obtain ⟨-, -, -, -, e0, e1, -⟩ := idx0 t
  show V c main_v0 (((cfg0.win 2).blk t).view.emb (ix2 (0 : Fin 1) j)) = V c main_v0 (ix2 (0 : Fin 1) j)
  refine congrArg (V c main_v0) (funext fun a => Fin.ext ?_)
  match a with
    | ⟨0, _⟩ => show win0_2.index t (0 : Fin 2) * 1 + 1 * (0 : Fin 1).val = (0 : Fin 1).val; omega
    | ⟨1, _⟩ => show win0_2.index t (1 : Fin 2) * 256 + 1 * j.val = j.val; omega

/-- The second layer's weights: one block, the whole matrix. -/
theorem blk_W2 (c : Dev nD) (t : Fin cfg0.N) (j : Fin 256) (q : Fin 64) :
    iblk0 V c 3 t (ix2 j q) = V c main_arg6 (ix2 j q) := by
  obtain ⟨-, -, -, -, -, -, e0, e1, -⟩ := idx0 t
  show V c main_arg6 (((cfg0.win 3).blk t).view.emb (ix2 j q)) = V c main_arg6 (ix2 j q)
  refine congrArg (V c main_arg6) (funext fun a => Fin.ext ?_)
  match a with
    | ⟨0, _⟩ => show win0_3.index t (0 : Fin 2) * 256 + 1 * j.val = j.val; omega
    | ⟨1, _⟩ => show win0_3.index t (1 : Fin 2) * 64 + 1 * q.val = q.val; omega

/-- The second bias as a one-row matrix: one block. -/
theorem blk_b2 (c : Dev nD) (t : Fin cfg0.N) (q : Fin 64) :
    iblk0 V c 4 t (ix2 (0 : Fin 1) q) = V c main_v1 (ix2 (0 : Fin 1) q) := by
  obtain ⟨-, -, -, -, -, -, -, -, e0, e1, -⟩ := idx0 t
  show V c main_v1 (((cfg0.win 4).blk t).view.emb (ix2 (0 : Fin 1) q)) = V c main_v1 (ix2 (0 : Fin 1) q)
  refine congrArg (V c main_v1) (funext fun a => Fin.ext ?_)
  match a with
    | ⟨0, _⟩ => show win0_4.index t (0 : Fin 2) * 1 + 1 * (0 : Fin 1).val = (0 : Fin 1).val; omega
    | ⟨1, _⟩ => show win0_4.index t (1 : Fin 2) * 64 + 1 * q.val = q.val; omega

/-- The output block's local entry `(p, q)` is the array's entry `(t·2000 + p, q)`. -/
theorem emb_out0 (t : Fin cfg0.N) (p : Fin 2000) (q : Fin 64) :
    ((cfg0.win 5).blk t).view.emb (ix2 p q) = ix2 (row0 t p) q := by
  obtain ⟨-, -, -, -, -, -, -, -, -, -, e0, e1⟩ := idx0 t
  refine funext fun a => Fin.ext ?_
  match a with
    | ⟨0, _⟩ => show win0_5.index t (0 : Fin 2) * 2000 + 1 * p.val = t.val * 2000 + p.val; omega
    | ⟨1, _⟩ => show win0_5.index t (1 : Fin 2) * 64 + 1 * q.val = q.val; omega

/-- The dense layers' scores of every node, from the arrays as the region finds them: the biases are the one-row
    matrices the host reshaped them to. -/
def denseOf (c : Dev nD) : Buf (Elt Ideal) ((c : Thread nD τ).loc main_v2) :=
  fun i => Cert.Spec.denseAt (a := 100000) (V c main_arg0) (V c main_arg4) (fun j => V c main_v0 (ix2 (0 : Fin 1) j))
    (V c main_arg6) (fun j => V c main_v1 (ix2 (0 : Fin 1) j)) (i 0) (i 1)

/-- What point `t` of the dense region writes back is block `t` of `denseOf`. -/
theorem dense_flushed (c : Dev nD) (t : Fin cfg0.N) :
    (dat0 V c).flushed 5 t = ((cfg0.win 5).blk t).view.read (Elt Ideal) (denseOf V c) := by
  show (cfg0.win 5).cut (grid0.coords t) ((dat0 V c).after 5 t) = _
  rw [after0_5]
  unfold out0_5
  rw [View.canon_unit_zero hz]
  simp only [View.ld_unit_zero (S := S2000x512) hz, View.ld_unit_zero (S := S512x256) hz, View.ld_unit_zero (S := S1x256) hz,
    View.ld_unit_zero (S := S256x64) hz, View.ld_unit_zero (S := S1x64) hz]
  funext y
  obtain ⟨p, q, rfl⟩ : ∃ (p : Fin 2000) (q : Fin 64), y = ix2 p q := ⟨y 0, y 1, eq_ix2 y⟩
  show k0_pay1 (iblk0 V c 0 t) (iblk0 V c 1 t) (iblk0 V c 2 t) (iblk0 V c 3 t) (iblk0 V c 4 t) (ix2 p q)
    = denseOf V c (((cfg0.win 5).blk t).view.emb (ix2 p q))
  refine (Bodies.dense_pay (iblk0 V c 0 t) (iblk0 V c 1 t) (iblk0 V c 2 t) (iblk0 V c 3 t) (iblk0 V c 4 t) p q).trans ?_
  rw [emb_out0]
  show _ = Cert.Spec.denseAt (a := 100000) (V c main_arg0) (V c main_arg4) (fun j => V c main_v0 (ix2 (0 : Fin 1) j))
    (V c main_arg6) (fun j => V c main_v1 (ix2 (0 : Fin 1) j)) (row0 t p) q
  unfold Cert.Spec.denseAt
  simp only [blk_x, blk_W1, blk_b1, blk_W2, blk_b2]

/-- An array index is in point `t`'s output block iff each coordinate is in the block's range. -/
theorem mem_blk0 (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v2).slice (win0_5.rect t)).set ↔ _
  rw [View.set_slice_whole, Rect.mem_set_unit]
  exact Iff.rfl

/-- Every row is in some point's block: row `r` in block `r / 2000`. -/
theorem cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 50 := N_0
  have ht : (i 0).val / 2000 < cfg0.N := by rw [hN]; omega
  obtain ⟨-, -, -, -, -, -, -, -, -, -, e0, e1⟩ := idx0 ⟨(i 0).val / 2000, ht⟩
  refine ⟨⟨(i 0).val / 2000, ht⟩, flush0_5 _, ?_⟩
  rw [mem_blk0]
  intro a
  match a with
  | ⟨0, _⟩ =>
    show win0_5.index ⟨(i 0).val / 2000, ht⟩ (0 : Fin 2) * 2000 ≤ (i 0).val ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 64 ≤ (i 1).val ∧ (i 1).val < win0_5.index ⟨(i 0).val / 2000, ht⟩ (1 : Fin 2) * 64 + 64
    rw [e1]; omega

/-- THE DENSE REGION'S OUTPUT ARRAY after the region: the dense layers' scores of every node. -/
theorem dense_final (c : Dev nD) : (dat0 V c).arrAt 5 cfg0.N = denseOf V c :=
  (dat0 V c).arrAt_eq_of_cover 5 (denseOf V c) (fun t _ => dense_flushed V c t) cover0

/-! ## The log-softmax region -/

/-- The printed index maps of the log-softmax region, decided over its 25 points. -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- The array row that local row `p` of block `t` is. -/
def row1 (t : Fin cfg1.N) (p : Fin 4000) : Fin 100000 :=
  ⟨t.val * 4000 + p.val, by have h : t.val < 25 := lt_of_lt_of_eq t.isLt N_1; have := p.isLt; omega⟩

/-- The input block at point `t`, read at `(p, k)`: row `t·4000 + p` of the array. -/
theorem blk_v (c : Dev nD) (t : Fin cfg1.N) (p : Fin 4000) (k : Fin 64) :
    iblk1 V c 0 t (ix2 p k) = V c main_v93 (ix2 (row1 t p) k) := by
  obtain ⟨e0, e1, -⟩ := idx1 t
  show V c main_v93 (((cfg1.win 0).blk t).view.emb (ix2 p k)) = V c main_v93 (ix2 (row1 t p) k)
  refine congrArg (V c main_v93) (funext fun a => Fin.ext ?_)
  match a with
    | ⟨0, _⟩ => show win1_0.index t (0 : Fin 2) * 4000 + 1 * p.val = t.val * 4000 + p.val; omega
    | ⟨1, _⟩ => show win1_0.index t (1 : Fin 2) * 64 + 1 * k.val = k.val; omega

/-- The output block's local entry `(p, q)` is the array's entry `(t·4000 + p, q)`. -/
theorem emb_out1 (t : Fin cfg1.N) (p : Fin 4000) (q : Fin 64) :
    ((cfg1.win 1).blk t).view.emb (ix2 p q) = ix2 (row1 t p) q := by
  obtain ⟨-, -, e0, e1⟩ := idx1 t
  refine funext fun a => Fin.ext ?_
  match a with
    | ⟨0, _⟩ => show win1_1.index t (0 : Fin 2) * 4000 + 1 * p.val = t.val * 4000 + p.val; omega
    | ⟨1, _⟩ => show win1_1.index t (1 : Fin 2) * 64 + 1 * q.val = q.val; omega

/-- What point `t` of the log-softmax region writes back is block `t` of the row-wise log-softmax of its input array. -/
theorem lsm_flushed (c : Dev nD) (t : Fin cfg1.N) :
    (dat1 V c).flushed 1 t = ((cfg1.win 1).blk t).view.read (Elt Ideal) (Cert.Spec.lsm (a := 100000) (b := 64) (V c main_v93)) := by
  show (cfg1.win 1).cut (grid1.coords t) ((dat1 V c).after 1 t) = _
  rw [after1_1]
  unfold out1_1
  rw [View.canon_unit_zero hz]
  simp only [View.ld_unit_zero (S := S4000x64) hz]
  funext y
  obtain ⟨p, q, rfl⟩ : ∃ (p : Fin 4000) (q : Fin 64), y = ix2 p q := ⟨y 0, y 1, eq_ix2 y⟩
  show k1_pay1 (iblk1 V c 0 t) (ix2 p q) = Cert.Spec.lsm (a := 100000) (b := 64) (V c main_v93) (((cfg1.win 1).blk t).view.emb (ix2 p q))
  refine (Bodies.lsm_pay (iblk1 V c 0 t) p q).trans ?_
  rw [emb_out1]
  show _ = Cert.Spec.lsmAt (a := 100000) (b := 64) (V c main_v93) (row1 t p) q
  exact Cert.Spec.lsmAt_congr (a := 4000) (a' := 100000) (iblk1 V c 0 t) (V c main_v93) p (row1 t p) q (fun k => blk_v V c t p k)

/-- An array index is in point `t`'s output block iff each coordinate is in the block's range. -/
theorem mem_blk1 (t : Fin cfg1.N) (i : S100000x64.Idx) :
    i ∈ ((cfg1.win 1).blk t).view.set ↔ ∀ a : Fin 2, win1_1.index t a * S4000x64.size a ≤ (i a).val ∧ (i a).val < win1_1.index t a * S4000x64.size a + S4000x64.size a := by
  show i ∈ ((View.whole main_v94).slice (win1_1.rect t)).set ↔ _
  rw [View.set_slice_whole, Rect.mem_set_unit]
  exact Iff.rfl

/-- Every row is in some point's block: row `r` in block `r / 4000`. -/
theorem cover1 (i : S100000x64.Idx) : ∃ t : Fin cfg1.N, (cfg1.win 1).flush t = true ∧ i ∈ ((cfg1.win 1).blk t).view.set := by
  have hi0 : (i 0).val < 100000 := (i 0).isLt
  have hi1 : (i 1).val < 64 := (i 1).isLt
  have hN : cfg1.N = 25 := N_1
  have ht : (i 0).val / 4000 < cfg1.N := by rw [hN]; omega
  obtain ⟨-, -, e0, e1⟩ := idx1 ⟨(i 0).val / 4000, ht⟩
  refine ⟨⟨(i 0).val / 4000, ht⟩, flush1_1 _, ?_⟩
  rw [mem_blk1]
  intro a
  match a with
  | ⟨0, _⟩ =>
    show win1_1.index ⟨(i 0).val / 4000, ht⟩ (0 : Fin 2) * 4000 ≤ (i 0).val ∧ (i 0).val < win1_1.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_1.index ⟨(i 0).val / 4000, ht⟩ (1 : Fin 2) * 64 ≤ (i 1).val ∧ (i 1).val < win1_1.index ⟨(i 0).val / 4000, ht⟩ (1 : Fin 2) * 64 + 64
    rw [e1]; omega

/-- THE LOG-SOFTMAX REGION'S OUTPUT ARRAY after the region: the row-wise log-softmax of its input array. -/
theorem lsm_final (c : Dev nD) : (dat1 V c).arrAt 1 cfg1.N = Cert.Spec.lsm (a := 100000) (b := 64) (V c main_v93) :=
  (dat1 V c).arrAt_eq_of_cover 1 (Cert.Spec.lsm (a := 100000) (b := 64) (V c main_v93)) (fun t _ => lsm_flushed V c t) cover1

end Cert.KernelIdeal.Arrays

end
-- ==== Proof.KernelValue.lean ====
/-
  The kernel program's result as one function of its nine arguments.

  Following the buffer contents through @main's four segments: the two reshapes lay the biases down as one-row
  matrices and keep every argument; the dense region leaves the dense layers' scores in its output array and keeps
  every other buffer; the long host stretch leaves `hops` of those scores, the edge arrays and the mixing
  coefficients; the log-softmax region leaves the row-wise log-softmax of that in the result buffer. Composed,
  the result is `out` of the nine launch arrays — the same expression the reference's run ends at.
-/
import proofs.«111577_j53523882443605_1_alg».proof.Proof.KernelRun
import proofs.«111577_j53523882443605_1_alg».proof.Proof.KernelHead
import proofs.«111577_j53523882443605_1_alg».proof.Proof.KernelMid
import proofs.«111577_j53523882443605_1_alg».proof.Proof.RegionArrays
import Idealize.ShloMosaic.Lib.ValueLayout

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- A buffer the two reshapes do not write holds, at the dense region's entry, what it held at launch. -/
theorem W1_keeps (c : Dev nD) (r : Ref sig .tc) (h0 : r ≠ main_v0) (h1 : r ≠ main_v1) :
    W1 m ρ c (Proc.devRef .tc r) = m ((c : Thread nD τ).loc r) :=
  (head_keeps (W0 m ρ c) r h0 h1).trans rfl

/-- A buffer neither the reshapes nor the dense region write holds, at the dense region's exit, what it held at launch. -/
theorem W2_keeps (c : Dev nD) (r : Ref sig .tc) (hr : ∀ w, Pipeline.arrRef spec0 w ≠ r) (h0 : r ≠ main_v0) (h1 : r ≠ main_v1) :
    W2 m ρ c (Proc.devRef .tc r) = m ((c : Thread nD τ).loc r) :=
  (W2_of_ne m ρ c r hr).trans (W1_keeps m ρ c r h0 h1)

/-- At the dense region's entry the first bias's one-row matrix, read at `(0, j)`, is the bias vector at `j`. -/
theorem V1_b1 (c : Dev nD) (j : Fin 256) :
    V1 m ρ c main_v0 (ix2 (0 : Fin 1) j) = m ((c : Thread nD τ).loc main_arg5) (ix1 j) := by
  have e : V1 m ρ c main_v0 = shapeCast S1x256 (W0 m ρ c (Proc.devRef .tc main_arg5)) shapeCasts_S256_S1x256 :=
    head_b1 (W0 m ρ c)
  rw [e]
  exact shapeCast_a_1a_apply _ _ (0 : Fin 1) j

/-- The same for the second bias. -/
theorem V1_b2 (c : Dev nD) (q : Fin 64) :
    V1 m ρ c main_v1 (ix2 (0 : Fin 1) q) = m ((c : Thread nD τ).loc main_arg7) (ix1 q) := by
  have e : V1 m ρ c main_v1 = shapeCast S1x64 (W0 m ρ c (Proc.devRef .tc main_arg7)) shapeCasts_S64_S1x64 :=
    head_b2 (W0 m ρ c)
  rw [e]
  exact shapeCast_a_1a_apply _ _ (0 : Fin 1) q

/-- The dense layers' scores from the arrays as the dense region finds them are the specification's `dense` of the
    launch arrays. -/
theorem denseOf_V1 (c : Dev nD) :
    Arrays.denseOf (V1 m ρ) c = Cert.Spec.dense (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) := by
  have h0 : V1 m ρ c main_arg0 = m ((c : Thread nD τ).loc main_arg0) := W1_keeps m ρ c main_arg0 (by decide) (by decide)
  have h4 : V1 m ρ c main_arg4 = m ((c : Thread nD τ).loc main_arg4) := W1_keeps m ρ c main_arg4 (by decide) (by decide)
  have h6 : V1 m ρ c main_arg6 = m ((c : Thread nD τ).loc main_arg6) := W1_keeps m ρ c main_arg6 (by decide) (by decide)
  have hb1 : (fun j : Fin 256 => V1 m ρ c main_v0 (ix2 (0 : Fin 1) j))
      = fun j : Fin 256 => m ((c : Thread nD τ).loc main_arg5) (ix1 j) := funext (V1_b1 m ρ c)
  have hb2 : (fun q : Fin 64 => V1 m ρ c main_v1 (ix2 (0 : Fin 1) q))
      = fun q : Fin 64 => m ((c : Thread nD τ).loc main_arg7) (ix1 q) := funext (V1_b2 m ρ c)
  funext i
  unfold Arrays.denseOf Cert.Spec.dense
  rw [h0, h4, h6, hb1, hb2]

/-- The dense region's output array at its exit: the specification's `dense` of the launch arrays. -/
theorem W2_v2 (c : Dev nD) :
    W2 m ρ c (Proc.devRef .tc main_v2) = Cert.Spec.dense (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) :=
  (W2_arr m ρ c 5).trans ((Arrays.dense_final (V1 m ρ) c).trans (denseOf_V1 m ρ c))

/-- What the log-softmax region's write-backs leave in the result buffer: `out` of the nine launch arrays. -/
theorem result_eq (c : Dev nD) :
    (dat1 (V3 m ρ) c).arrAt 1 cfg1.N
      = Hops.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Arrays.lsm_final (V3 m ρ) c]
  unfold Hops.out
  refine congrArg (Cert.Spec.lsm (a := 100000) (b := 64)) ?_
  show StableHlo.after hostOps1 (W2 m ρ c) (Proc.devRef .tc main_v93) = _
  rw [mid (W2 m ρ c), W2_v2 m ρ c,
    W2_keeps m ρ c main_arg1 (by decide) (by decide) (by decide),
    W2_keeps m ρ c main_arg2 (by decide) (by decide) (by decide),
    W2_keeps m ρ c main_arg3 (by decide) (by decide) (by decide),
    W2_keeps m ρ c main_arg8 (by decide) (by decide) (by decide)]

/-- THE KERNEL PROGRAM'S RUN at the ideal instance: every weakly fair execution terminates with the result buffer at
    `out` of the nine launch arrays and every argument unchanged. -/
theorem run : θ_run (defs (F := Ideal)) (onTc (τ := τ) (main (F := Ideal))) ⟨m, fun _ => 0, ρ⟩ fun r => ∀ c : Dev nD,
      r.2.mem ((c.tc : Thread nD τ).loc main_v94)
          = Hops.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans (result_eq m ρ c), (h c).2⟩) (run_named m ρ)

end Cert.KernelIdeal.Hand

end
-- ==== Proof.RefOps.lean ====
/-
  The reference program as one straight line of host operations.

  The program is a sequence of 133 operations on whole arrays; two of them are calls of small functions whose
  bodies are themselves straight lines, so with the calls' operations put in the calls' places it is one list.
  The list is cut where the mathematics changes:

    opsA  the two dense layers with the rectifier between them (11 operations, the rectifier's three inline);
    opsB  the five propagation hops mixed by the five coefficients (107 operations);
    opsC  the row-wise log-softmax (15 operations, all of them the called function's).

  Running the program from any memory leaves every buffer at the fold of the three pieces, one after the
  other, over what the buffers held at the start (`fold_run`). What each piece computes is read off separately.
-/
import proofs.«111577_j53523882443605_1_alg».proof.Proof.Gen.ReferenceIdeal
import Idealize.ShloMosaic.Lib.StableHlo.Run

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

/-- The dense layers: x·W1, the first bias repeated down the rows and added, the maximum with zero, the product
    with W2, the second bias repeated and added. -/
abbrev opsA : List (HloOp τ sig (Elt F)) :=
  [ StableHlo.binary main_arg0 main_arg4 main_v0 ((fun l r => Host.dotGeneral dot_S100000x512_S512x256_S100000x256_1_0_0_1_n_n none l r) : (⟨S100000x512, .f32⟩ : BufTy).Contents (Elt F) → (⟨S512x256, .f32⟩ : BufTy).Contents (Elt F) → (⟨S100000x256, .f32⟩ : BufTy).Contents (Elt F)),
    StableHlo.unary main_arg5 main_v1 (broadcastInDim S1x256 ![1] bcast_S256_S1x256_1 : (⟨S256, .f32⟩ : BufTy).Contents (Elt F) → (⟨S1x256, .f32⟩ : BufTy).Contents (Elt F)),
    StableHlo.unary main_v1 main_v2 (broadcastInDim S100000x256 ![0, 1] bcast_S1x256_S100000x256_0_1 : (⟨S1x256, .f32⟩ : BufTy).Contents (Elt F) → (⟨S100000x256, .f32⟩ : BufTy).Contents (Elt F)),
    StableHlo.binary main_v0 main_v2 main_v3 (addf : (⟨S100000x256, .f32⟩ : BufTy).Contents (Elt F) → (⟨S100000x256, .f32⟩ : BufTy).Contents (Elt F) → (⟨S100000x256, .f32⟩ : BufTy).Contents (Elt F)),
    StableHlo.TRef.nullary main_call0.cst (constant S_ .f32 0x00000000#32),
    StableHlo.TRef.unary main_call0.cst main_call0.v0 (broadcastInDim S100000x256 ![] bcast_S_S100000x256),
    StableHlo.TRef.binary (StableHlo.TRef.of main_v3 : StableHlo.TRef sig ⟨S100000x256, .f32⟩) main_call0.v0 main_call0.v1 maximumf,
    StableHlo.binary main_v4 main_arg6 main_v5 ((fun l r => Host.dotGeneral dot_S100000x256_S256x64_S100000x64_1_0_0_1_n_n none l r) : (⟨S100000x256, .f32⟩ : BufTy).Contents (Elt F) → (⟨S256x64, .f32⟩ : BufTy).Contents (Elt F) → (⟨S100000x64, .f32⟩ : BufTy).Contents (Elt F)),
    StableHlo.unary main_arg7 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
    StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)) ]

/-- The five hops: each gathers the source rows of the edges, scales them by the edges' weights and adds them into
    the target rows of an all-zero array; the five results are scaled by the five coefficients and summed onto zero. -/
abbrev opsB : List (HloOp τ sig (Elt F)) :=
  [ StableHlo.nullary main_cst (constant S_ .f32 0x00000000#32),
    StableHlo.unary main_cst main_v9 (broadcastInDim S100000x64 ![] bcast_S_S100000x64 : (⟨S_, .f32⟩ : BufTy).Contents (Elt F) → (⟨S100000x64, .f32⟩ : BufTy).Contents (Elt F)),
    StableHlo.unary main_arg3 main_v10 (broadcastInDim S3200000x1 ![0] bcast_S3200000_S3200000x1_0 : (⟨S3200000, .f32⟩ : BufTy).Contents (Elt F) → (⟨S3200000x1, .f32⟩ : BufTy).Contents (Elt F)),
    StableHlo.nullary main_c (constantI S_ 32 0#32),
    StableHlo.unary main_c main_v11 (broadcastInDim S3200000 ![] bcast_S_S3200000 : (⟨S_, .i32⟩ : BufTy).Contents (Elt F) → (⟨S3200000, .i32⟩ : BufTy).Contents (Elt F)),
    StableHlo.binary main_arg2 main_v11 main_v12 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v13 (broadcastInDim S3200000 ![] bcast_S_S3200000 : (⟨S_, .i32⟩ : BufTy).Contents (Elt F) → (⟨S3200000, .i32⟩ : BufTy).Contents (Elt F)),
    StableHlo.binary main_arg2 main_v13 main_v14 (addi : (⟨S3200000, .i32⟩ : BufTy).Contents (Elt F) → (⟨S3200000, .i32⟩ : BufTy).Contents (Elt F) → (⟨S3200000, .i32⟩ : BufTy).Contents (Elt F)),
    StableHlo.ternary main_v12 main_v14 main_arg2 main_v15 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v15 main_v16 (broadcastInDim S3200000x1 ![0] bcast_S3200000_S3200000x1_0 : (⟨S3200000, .i32⟩ : BufTy).Contents (Elt F) → (⟨S3200000x1, .i32⟩ : BufTy).Contents (Elt F)),
    StableHlo.binary main_v8 main_v16 main_v17 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v10 main_v18 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v18 main_v17 main_v19 (mulf : (⟨S3200000x64, .f32⟩ : BufTy).Contents (Elt F) → (⟨S3200000x64, .f32⟩ : BufTy).Contents (Elt F) → (⟨S3200000x64, .f32⟩ : BufTy).Contents (Elt F)),
    StableHlo.nullary main_cst_1 (constant S_ .f32 0x00000000#32),
    StableHlo.unary main_cst_1 main_v20 (broadcastInDim S100000x64 ![] bcast_S_S100000x64 : (⟨S_, .f32⟩ : BufTy).Contents (Elt F) → (⟨S100000x64, .f32⟩ : BufTy).Contents (Elt F)),
    StableHlo.unary main_arg1 main_v21 (broadcastInDim S3200000x1 ![0] bcast_S3200000_S3200000x1_0 : (⟨S3200000, .i32⟩ : BufTy).Contents (Elt F) → (⟨S3200000x1, .i32⟩ : BufTy).Contents (Elt F)),
    StableHlo.ternary main_v20 main_v21 main_v19 main_v22 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg8 main_v23 ((extractStridedSlice S1 ![0] · slices_S5_S1_0) : (⟨S5, .f32⟩ : BufTy).Contents (Elt F) → (⟨S1, .f32⟩ : BufTy).Contents (Elt F)),
    StableHlo.reshape main_v23 main_v24 rfl shapeCasts_S1_S_,
    StableHlo.unary main_v24 main_v25 (broadcastInDim S100000x64 ![] bcast_S_S100000x64 : (⟨S_, .f32⟩ : BufTy).Contents (Elt F) → (⟨S100000x64, .f32⟩ : BufTy).Contents (Elt F)),
    StableHlo.binary main_v25 main_v22 main_v26 (mulf : (⟨S100000x64, .f32⟩ : BufTy).Contents (Elt F) → (⟨S100000x64, .f32⟩ : BufTy).Contents (Elt F) → (⟨S100000x64, .f32⟩ : BufTy).Contents (Elt F)),
    StableHlo.binary main_v9 main_v26 main_v27 (addf : (⟨S100000x64, .f32⟩ : BufTy).Contents (Elt F) → (⟨S100000x64, .f32⟩ : BufTy).Contents (Elt F) → (⟨S100000x64, .f32⟩ : BufTy).Contents (Elt F)),
    StableHlo.unary main_arg3 main_v28 (broadcastInDim S3200000x1 ![0] bcast_S3200000_S3200000x1_0 : (⟨S3200000, .f32⟩ : BufTy).Contents (Elt F) → (⟨S3200000x1, .f32⟩ : BufTy).Contents (Elt F)),
    StableHlo.nullary main_c_2 (constantI S_ 32 0#32),
    StableHlo.unary main_c_2 main_v29 (broadcastInDim S3200000 ![] bcast_S_S3200000 : (⟨S_, .i32⟩ : BufTy).Contents (Elt F) → (⟨S3200000, .i32⟩ : BufTy).Contents (Elt F)),
    StableHlo.binary main_arg2 main_v29 main_v30 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v31 (broadcastInDim S3200000 ![] bcast_S_S3200000 : (⟨S_, .i32⟩ : BufTy).Contents (Elt F) → (⟨S3200000, .i32⟩ : BufTy).Contents (Elt F)),
    StableHlo.binary main_arg2 main_v31 main_v32 (addi : (⟨S3200000, .i32⟩ : BufTy).Contents (Elt F) → (⟨S3200000, .i32⟩ : BufTy).Contents (Elt F) → (⟨S3200000, .i32⟩ : BufTy).Contents (Elt F)),
    StableHlo.ternary main_v30 main_v32 main_arg2 main_v33 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v33 main_v34 (broadcastInDim S3200000x1 ![0] bcast_S3200000_S3200000x1_0 : (⟨S3200000, .i32⟩ : BufTy).Contents (Elt F) → (⟨S3200000x1, .i32⟩ : BufTy).Contents (Elt F)),
    StableHlo.binary main_v22 main_v34 main_v35 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v28 main_v36 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v36 main_v35 main_v37 (mulf : (⟨S3200000x64, .f32⟩ : BufTy).Contents (Elt F) → (⟨S3200000x64, .f32⟩ : BufTy).Contents (Elt F) → (⟨S3200000x64, .f32⟩ : BufTy).Contents (Elt F)),
    StableHlo.nullary main_cst_4 (constant S_ .f32 0x00000000#32),
    StableHlo.unary main_cst_4 main_v38 (broadcastInDim S100000x64 ![] bcast_S_S100000x64 : (⟨S_, .f32⟩ : BufTy).Contents (Elt F) → (⟨S100000x64, .f32⟩ : BufTy).Contents (Elt F)),
    StableHlo.unary main_arg1 main_v39 (broadcastInDim S3200000x1 ![0] bcast_S3200000_S3200000x1_0 : (⟨S3200000, .i32⟩ : BufTy).Contents (Elt F) → (⟨S3200000x1, .i32⟩ : BufTy).Contents (Elt F)),
    StableHlo.ternary main_v38 main_v39 main_v37 main_v40 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg8 main_v41 ((extractStridedSlice S1 ![1] · slices_S5_S1_1) : (⟨S5, .f32⟩ : BufTy).Contents (Elt F) → (⟨S1, .f32⟩ : BufTy).Contents (Elt F)),
    StableHlo.reshape main_v41 main_v42 rfl shapeCasts_S1_S_,
    StableHlo.unary main_v42 main_v43 (broadcastInDim S100000x64 ![] bcast_S_S100000x64 : (⟨S_, .f32⟩ : BufTy).Contents (Elt F) → (⟨S100000x64, .f32⟩ : BufTy).Contents (Elt F)),
    StableHlo.binary main_v43 main_v40 main_v44 (mulf : (⟨S100000x64, .f32⟩ : BufTy).Contents (Elt F) → (⟨S100000x64, .f32⟩ : BufTy).Contents (Elt F) → (⟨S100000x64, .f32⟩ : BufTy).Contents (Elt F)),
    StableHlo.binary main_v27 main_v44 main_v45 (addf : (⟨S100000x64, .f32⟩ : BufTy).Contents (Elt F) → (⟨S100000x64, .f32⟩ : BufTy).Contents (Elt F) → (⟨S100000x64, .f32⟩ : BufTy).Contents (Elt F)),
    StableHlo.unary main_arg3 main_v46 (broadcastInDim S3200000x1 ![0] bcast_S3200000_S3200000x1_0 : (⟨S3200000, .f32⟩ : BufTy).Contents (Elt F) → (⟨S3200000x1, .f32⟩ : BufTy).Contents (Elt F)),
    StableHlo.nullary main_c_5 (constantI S_ 32 0#32),
    StableHlo.unary main_c_5 main_v47 (broadcastInDim S3200000 ![] bcast_S_S3200000 : (⟨S_, .i32⟩ : BufTy).Contents (Elt F) → (⟨S3200000, .i32⟩ : BufTy).Contents (Elt F)),
    StableHlo.binary main_arg2 main_v47 main_v48 (cmpi .slt : (⟨S3200000, .i32⟩ : BufTy).Contents (Elt F) → (⟨S3200000, .i32⟩ : BufTy).Contents (Elt F) → (⟨S3200000, .i1⟩ : BufTy).Contents (Elt F)),
    StableHlo.nullary main_c_6 (constantI S_ 32 100000#32),
    StableHlo.unary main_c_6 main_v49 (broadcastInDim S3200000 ![] bcast_S_S3200000 : (⟨S_, .i32⟩ : BufTy).Contents (Elt F) → (⟨S3200000, .i32⟩ : BufTy).Contents (Elt F)),
    StableHlo.binary main_arg2 main_v49 main_v50 (addi : (⟨S3200000, .i32⟩ : BufTy).Contents (Elt F) → (⟨S3200000, .i32⟩ : BufTy).Contents (Elt F) → (⟨S3200000, .i32⟩ : BufTy).Contents (Elt F)),
    StableHlo.ternary main_v48 main_v50 main_arg2 main_v51 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v51 main_v52 (broadcastInDim S3200000x1 ![0] bcast_S3200000_S3200000x1_0 : (⟨S3200000, .i32⟩ : BufTy).Contents (Elt F) → (⟨S3200000x1, .i32⟩ : BufTy).Contents (Elt F)),
    StableHlo.binary main_v40 main_v52 main_v53 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v46 main_v54 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v54 main_v53 main_v55 (mulf : (⟨S3200000x64, .f32⟩ : BufTy).Contents (Elt F) → (⟨S3200000x64, .f32⟩ : BufTy).Contents (Elt F) → (⟨S3200000x64, .f32⟩ : BufTy).Contents (Elt F)),
    StableHlo.nullary main_cst_7 (constant S_ .f32 0x00000000#32),
    StableHlo.unary main_cst_7 main_v56 (broadcastInDim S100000x64 ![] bcast_S_S100000x64 : (⟨S_, .f32⟩ : BufTy).Contents (Elt F) → (⟨S100000x64, .f32⟩ : BufTy).Contents (Elt F)),
    StableHlo.unary main_arg1 main_v57 (broadcastInDim S3200000x1 ![0] bcast_S3200000_S3200000x1_0 : (⟨S3200000, .i32⟩ : BufTy).Contents (Elt F) → (⟨S3200000x1, .i32⟩ : BufTy).Contents (Elt F)),
    StableHlo.ternary main_v56 main_v57 main_v55 main_v58 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg8 main_v59 ((extractStridedSlice S1 ![2] · slices_S5_S1_2) : (⟨S5, .f32⟩ : BufTy).Contents (Elt F) → (⟨S1, .f32⟩ : BufTy).Contents (Elt F)),
    StableHlo.reshape main_v59 main_v60 rfl shapeCasts_S1_S_,
    StableHlo.unary main_v60 main_v61 (broadcastInDim S100000x64 ![] bcast_S_S100000x64 : (⟨S_, .f32⟩ : BufTy).Contents (Elt F) → (⟨S100000x64, .f32⟩ : BufTy).Contents (Elt F)),
    StableHlo.binary main_v61 main_v58 main_v62 (mulf : (⟨S100000x64, .f32⟩ : BufTy).Contents (Elt F) → (⟨S100000x64, .f32⟩ : BufTy).Contents (Elt F) → (⟨S100000x64, .f32⟩ : BufTy).Contents (Elt F)),
    StableHlo.binary main_v45 main_v62 main_v63 (addf : (⟨S100000x64, .f32⟩ : BufTy).Contents (Elt F) → (⟨S100000x64, .f32⟩ : BufTy).Contents (Elt F) → (⟨S100000x64, .f32⟩ : BufTy).Contents (Elt F)),
    StableHlo.unary main_arg3 main_v64 (broadcastInDim S3200000x1 ![0] bcast_S3200000_S3200000x1_0 : (⟨S3200000, .f32⟩ : BufTy).Contents (Elt F) → (⟨S3200000x1, .f32⟩ : BufTy).Contents (Elt F)),
    StableHlo.nullary main_c_8 (constantI S_ 32 0#32),
    StableHlo.unary main_c_8 main_v65 (broadcastInDim S3200000 ![] bcast_S_S3200000 : (⟨S_, .i32⟩ : BufTy).Contents (Elt F) → (⟨S3200000, .i32⟩ : BufTy).Contents (Elt F)),
    StableHlo.binary main_arg2 main_v65 main_v66 (cmpi .slt : (⟨S3200000, .i32⟩ : BufTy).Contents (Elt F) → (⟨S3200000, .i32⟩ : BufTy).Contents (Elt F) → (⟨S3200000, .i1⟩ : BufTy).Contents (Elt F)),
    StableHlo.nullary main_c_9 (constantI S_ 32 100000#32),
    StableHlo.unary main_c_9 main_v67 (broadcastInDim S3200000 ![] bcast_S_S3200000 : (⟨S_, .i32⟩ : BufTy).Contents (Elt F) → (⟨S3200000, .i32⟩ : BufTy).Contents (Elt F)),
    StableHlo.binary main_arg2 main_v67 main_v68 (addi : (⟨S3200000, .i32⟩ : BufTy).Contents (Elt F) → (⟨S3200000, .i32⟩ : BufTy).Contents (Elt F) → (⟨S3200000, .i32⟩ : BufTy).Contents (Elt F)),
    StableHlo.ternary main_v66 main_v68 main_arg2 main_v69 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v69 main_v70 (broadcastInDim S3200000x1 ![0] bcast_S3200000_S3200000x1_0 : (⟨S3200000, .i32⟩ : BufTy).Contents (Elt F) → (⟨S3200000x1, .i32⟩ : BufTy).Contents (Elt F)),
    StableHlo.binary main_v58 main_v70 main_v71 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v64 main_v72 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v72 main_v71 main_v73 (mulf : (⟨S3200000x64, .f32⟩ : BufTy).Contents (Elt F) → (⟨S3200000x64, .f32⟩ : BufTy).Contents (Elt F) → (⟨S3200000x64, .f32⟩ : BufTy).Contents (Elt F)),
    StableHlo.nullary main_cst_10 (constant S_ .f32 0x00000000#32),
    StableHlo.unary main_cst_10 main_v74 (broadcastInDim S100000x64 ![] bcast_S_S100000x64 : (⟨S_, .f32⟩ : BufTy).Contents (Elt F) → (⟨S100000x64, .f32⟩ : BufTy).Contents (Elt F)),
    StableHlo.unary main_arg1 main_v75 (broadcastInDim S3200000x1 ![0] bcast_S3200000_S3200000x1_0 : (⟨S3200000, .i32⟩ : BufTy).Contents (Elt F) → (⟨S3200000x1, .i32⟩ : BufTy).Contents (Elt F)),
    StableHlo.ternary main_v74 main_v75 main_v73 main_v76 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg8 main_v77 ((extractStridedSlice S1 ![3] · slices_S5_S1_3) : (⟨S5, .f32⟩ : BufTy).Contents (Elt F) → (⟨S1, .f32⟩ : BufTy).Contents (Elt F)),
    StableHlo.reshape main_v77 main_v78 rfl shapeCasts_S1_S_,
    StableHlo.unary main_v78 main_v79 (broadcastInDim S100000x64 ![] bcast_S_S100000x64 : (⟨S_, .f32⟩ : BufTy).Contents (Elt F) → (⟨S100000x64, .f32⟩ : BufTy).Contents (Elt F)),
    StableHlo.binary main_v79 main_v76 main_v80 (mulf : (⟨S100000x64, .f32⟩ : BufTy).Contents (Elt F) → (⟨S100000x64, .f32⟩ : BufTy).Contents (Elt F) → (⟨S100000x64, .f32⟩ : BufTy).Contents (Elt F)),
    StableHlo.binary main_v63 main_v80 main_v81 (addf : (⟨S100000x64, .f32⟩ : BufTy).Contents (Elt F) → (⟨S100000x64, .f32⟩ : BufTy).Contents (Elt F) → (⟨S100000x64, .f32⟩ : BufTy).Contents (Elt F)),
    StableHlo.unary main_arg3 main_v82 (broadcastInDim S3200000x1 ![0] bcast_S3200000_S3200000x1_0 : (⟨S3200000, .f32⟩ : BufTy).Contents (Elt F) → (⟨S3200000x1, .f32⟩ : BufTy).Contents (Elt F)),
    StableHlo.nullary main_c_11 (constantI S_ 32 0#32),
    StableHlo.unary main_c_11 main_v83 (broadcastInDim S3200000 ![] bcast_S_S3200000 : (⟨S_, .i32⟩ : BufTy).Contents (Elt F) → (⟨S3200000, .i32⟩ : BufTy).Contents (Elt F)),
    StableHlo.binary main_arg2 main_v83 main_v84 (cmpi .slt : (⟨S3200000, .i32⟩ : BufTy).Contents (Elt F) → (⟨S3200000, .i32⟩ : BufTy).Contents (Elt F) → (⟨S3200000, .i1⟩ : BufTy).Contents (Elt F)),
    StableHlo.nullary main_c_12 (constantI S_ 32 100000#32),
    StableHlo.unary main_c_12 main_v85 (broadcastInDim S3200000 ![] bcast_S_S3200000 : (⟨S_, .i32⟩ : BufTy).Contents (Elt F) → (⟨S3200000, .i32⟩ : BufTy).Contents (Elt F)),
    StableHlo.binary main_arg2 main_v85 main_v86 (addi : (⟨S3200000, .i32⟩ : BufTy).Contents (Elt F) → (⟨S3200000, .i32⟩ : BufTy).Contents (Elt F) → (⟨S3200000, .i32⟩ : BufTy).Contents (Elt F)),
    StableHlo.ternary main_v84 main_v86 main_arg2 main_v87 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v87 main_v88 (broadcastInDim S3200000x1 ![0] bcast_S3200000_S3200000x1_0 : (⟨S3200000, .i32⟩ : BufTy).Contents (Elt F) → (⟨S3200000x1, .i32⟩ : BufTy).Contents (Elt F)),
    StableHlo.binary main_v76 main_v88 main_v89 ((fun x i => Host.gather gather_S100000x64_S3200000x1_S3200000x64_1_0_n_n_0_1_164 x i) : (⟨S100000x64, .f32⟩ : BufTy).Contents (Elt F) → (⟨S3200000x1, .i32⟩ : BufTy).Contents (Elt F) → (⟨S3200000x64, .f32⟩ : BufTy).Contents (Elt F)),
    StableHlo.unary main_v82 main_v90 (broadcastInDim S3200000x64 ![0, 1] bcast_S3200000x1_S3200000x64_0_1 : (⟨S3200000x1, .f32⟩ : BufTy).Contents (Elt F) → (⟨S3200000x64, .f32⟩ : BufTy).Contents (Elt F)),
    StableHlo.binary main_v90 main_v89 main_v91 (mulf : (⟨S3200000x64, .f32⟩ : BufTy).Contents (Elt F) → (⟨S3200000x64, .f32⟩ : BufTy).Contents (Elt F) → (⟨S3200000x64, .f32⟩ : BufTy).Contents (Elt F)),
    StableHlo.nullary main_cst_13 (constant S_ .f32 0x00000000#32),
    StableHlo.unary main_cst_13 main_v92 (broadcastInDim S100000x64 ![] bcast_S_S100000x64 : (⟨S_, .f32⟩ : BufTy).Contents (Elt F) → (⟨S100000x64, .f32⟩ : BufTy).Contents (Elt F)),
    StableHlo.unary main_arg1 main_v93 (broadcastInDim S3200000x1 ![0] bcast_S3200000_S3200000x1_0 : (⟨S3200000, .i32⟩ : BufTy).Contents (Elt F) → (⟨S3200000x1, .i32⟩ : BufTy).Contents (Elt F)),
    StableHlo.ternary main_v92 main_v93 main_v91 main_v94 ((fun x i u => Host.scatterAdd scatter_S100000x64_S3200000x1_S3200000x64_1_0_0_1 x i u) : (⟨S100000x64, .f32⟩ : BufTy).Contents (Elt F) → (⟨S3200000x1, .i32⟩ : BufTy).Contents (Elt F) → (⟨S3200000x64, .f32⟩ : BufTy).Contents (Elt F) → (⟨S100000x64, .f32⟩ : BufTy).Contents (Elt F)),
    StableHlo.unary main_arg8 main_v95 ((extractStridedSlice S1 ![4] · slices_S5_S1_4) : (⟨S5, .f32⟩ : BufTy).Contents (Elt F) → (⟨S1, .f32⟩ : BufTy).Contents (Elt F)),
    StableHlo.reshape main_v95 main_v96 rfl shapeCasts_S1_S_,
    StableHlo.unary main_v96 main_v97 (broadcastInDim S100000x64 ![] bcast_S_S100000x64 : (⟨S_, .f32⟩ : BufTy).Contents (Elt F) → (⟨S100000x64, .f32⟩ : BufTy).Contents (Elt F)),
    StableHlo.binary main_v97 main_v94 main_v98 (mulf : (⟨S100000x64, .f32⟩ : BufTy).Contents (Elt F) → (⟨S100000x64, .f32⟩ : BufTy).Contents (Elt F) → (⟨S100000x64, .f32⟩ : BufTy).Contents (Elt F)),
    StableHlo.binary main_v81 main_v98 main_v99 (addf : (⟨S100000x64, .f32⟩ : BufTy).Contents (Elt F) → (⟨S100000x64, .f32⟩ : BufTy).Contents (Elt F) → (⟨S100000x64, .f32⟩ : BufTy).Contents (Elt F)) ]

/-- The log-softmax of each row: the row's maximum (and a second maximum of it against -∞), the shifted entries,
    their exponentials summed along the row, the logarithm of the sum subtracted. -/
abbrev opsC : List (HloOp τ sig (Elt F)) :=
  [ StableHlo.TRef.nullary main_call1.cst (constant S_ .f32 0xFF800000#32),
    StableHlo.TRef.binary (StableHlo.TRef.of main_v99 : StableHlo.TRef sig ⟨S100000x64, .f32⟩) main_call1.cst main_call1.v0 (fun x v => Host.reduce FloatOps.maximumf x v reducesTo_S100000x64_S100000_d1 h_S_),
    StableHlo.TRef.nullary main_call1.cst_0 (constant S_ .f32 0xFF800000#32),
    StableHlo.TRef.unary main_call1.cst_0 main_call1.v1 (broadcastInDim S100000 ![] bcast_S_S100000),
    StableHlo.TRef.binary main_call1.v1 main_call1.v0 main_call1.v2 maximumf,
    StableHlo.TRef.unary main_call1.v2 main_call1.v3 (broadcastInDim S100000x1 ![0] bcast_S100000_S100000x1_0),
    StableHlo.TRef.unary main_call1.v3 main_call1.v4 (broadcastInDim S100000x64 ![0, 1] bcast_S100000x1_S100000x64_0_1),
    StableHlo.TRef.binary (StableHlo.TRef.of main_v99 : StableHlo.TRef sig ⟨S100000x64, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S100000x64_S100000_d1 h_S_),
    StableHlo.TRef.unary main_call1.v7 main_call1.v8 (broadcastInDim S100000x1 ![0] bcast_S100000_S100000x1_0),
    StableHlo.TRef.unary main_call1.v8 main_call1.v9 Host.log,
    StableHlo.TRef.unary main_call1.v9 main_call1.v10 (broadcastInDim S100000x64 ![0, 1] bcast_S100000x1_S100000x64_0_1),
    StableHlo.TRef.binary main_call1.v5 main_call1.v10 main_call1.v11 subf ]

/-- The whole program, in order. -/
abbrev ops : List (HloOp τ sig (Elt F)) := opsA ++ opsB ++ opsC

/-- The program is that line: with the two called functions' definitions put at their calls, both sides are one
    chain of single steps once the sequencing is reassociated. -/
theorem main_eq (c : Dev nD) : main (F := F) c = seq ops := by
  simp only [main, main_part0, main_part1, fn_relu.body, fn_log_softmax.body, seq, List.cons_append, List.nil_append,
    bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem opsB_sub : (opsB : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., reshape_bufs_sub .., unary_bufs_sub .., binary_bufs_sub .., binary_bufs_sub ..⟩

theorem opsC_sub : (opsC : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Every operation touches TensorCore buffers only. -/
theorem ops_sub : (ops : List (HloOp τ sig (Elt F))).Forall fun op => op.bufs ⊆ tcRefs τ sig :=
  List.forall_append.2 ⟨List.forall_append.2 ⟨opsA_sub, opsB_sub⟩, opsC_sub⟩

theorem opsA_fresh : ∀ op ∈ (opsA : List (HloOp τ sig (Elt F))), op.fresh = ∅ := by
  intro _ h; (repeat (cases h with | head => rfl | tail _ h => ?_)); exact nomatch h

theorem opsB_fresh : ∀ op ∈ (opsB : List (HloOp τ sig (Elt F))), op.fresh = ∅ := by
  intro _ h; (repeat (cases h with | head => rfl | tail _ h => ?_)); exact nomatch h

theorem opsC_fresh : ∀ op ∈ (opsC : List (HloOp τ sig (Elt F))), op.fresh = ∅ := by
  intro _ h; (repeat (cases h with | head => rfl | tail _ h => ?_)); exact nomatch h

/-- Every operation determines all it writes. -/
theorem ops_fresh : ∀ op ∈ (ops : List (HloOp τ sig (Elt F))), op.fresh = ∅ := by
  intro op h
  rcases List.mem_append.1 h with h | h
  · rcases List.mem_append.1 h with h | h
    · exact opsA_fresh op h
    · exact opsB_fresh op h
  · exact opsC_fresh op h

/-- The fold over two lines in a row is the second line's fold over the first's. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- From any memory with zero counters, every fair run of the program ends, and ends with each buffer holding the
    fold of the three pieces, in order, over what the buffers held at the start. -/
theorem fold_run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsC (after opsB (after opsA (launchContents m c))) (Proc.devRef .tc b) := by
  have h := run_seq scopedRefs_eq scopedSems_eq defs (main (F := F)) (fun _ => ops) main_eq (fun _ => ops_sub) m ρ
    (fun _ => ops_fresh)
  simpa only [ops, after_app] using h

end Cert.ReferenceIdeal.Hand

end
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.RefDenseSpec.lean ====
/-
  The dense layers' eleven operations, composed, are the specification's dense scores.

  Entry (p, q) of the composed term is read from the outside in: the last addition, the second product as a sum
  over the 256 hidden units, under it the maximum with the zero constant, the first addition, the first product as
  a sum over the 512 features; each bias vector, laid down as one row and stretched over the rows, is read at its
  column. What is reached is the specification's expression, term for term.
-/
import proofs.«111577_j53523882443605_1_alg».proof.Proof.Gen.ReferenceIdeal
import proofs.«111577_j53523882443605_1_alg».proof.Proof.Spec
import proofs.«111577_j53523882443605_1_alg».proof.Proof.LibMatmulAt
import proofs.«111577_j53523882443605_1_alg».proof.Proof.LibRowInDim
import proofs.«111577_j53523882443605_1_alg».proof.Proof.LibHostRead

noncomputable section

open scoped BigOperators

namespace Cert.ReferenceIdeal.Hand

open Idealize.ShloMosaic Idealize.ShloMosaic.ValueIdx
open Cert.ReferenceIdeal Cert.ReferenceIdeal.Gen

variable {F : FTy → Type} [FloatOps F]

/-- The eleven operations composed: max(x · W1 + b1, 0) · W2 + b2 in the host's operations. -/
def denseTerm (x : (⟨S100000x512, .f32⟩ : BufTy).Contents (Elt F)) (W1 : (⟨S512x256, .f32⟩ : BufTy).Contents (Elt F))
    (b1 : (⟨S256, .f32⟩ : BufTy).Contents (Elt F)) (W2 : (⟨S256x64, .f32⟩ : BufTy).Contents (Elt F))
    (b2 : (⟨S64, .f32⟩ : BufTy).Contents (Elt F)) : (⟨S100000x64, .f32⟩ : BufTy).Contents (Elt F) :=
  addf
    (Host.dotGeneral dot_S100000x256_S256x64_S100000x64_1_0_0_1_n_n none
      (maximumf
        (addf (Host.dotGeneral dot_S100000x512_S512x256_S100000x256_1_0_0_1_n_n none x W1)
          (broadcastInDim S100000x256 ![0, 1] bcast_S1x256_S100000x256_0_1 (broadcastInDim S1x256 ![1] bcast_S256_S1x256_1 b1)))
        (broadcastInDim S100000x256 ![] bcast_S_S100000x256 (constant S_ .f32 0x00000000#32)))
      W2)
    (broadcastInDim S100000x64 ![0, 1] bcast_S1x64_S100000x64_0_1 (broadcastInDim S1x64 ![1] bcast_S64_S1x64_1 b2))

/-! The two products' dimension numbers contract the left operand's second axis with the right operand's first. -/

section Dot1
local notation "D1" => dot_S100000x512_S512x256_S100000x256_1_0_0_1_n_n
theorem d1_rank : (D1).contr.rank = 1 := rfl
theorem d1_size : (D1).contr.size ⟨0, by rw [d1_rank]; omega⟩ = 512 := rfl
theorem d1_l0 : ∀ i q, ((D1).lhsIdx i q (0 : Fin 2)).val = (i (0 : Fin 2)).val := by
  intro i q; simp [DotDims.lhsIdx, dot_S100000x512_S512x256_S100000x256_1_0_0_1_n_n]; rfl
theorem d1_l1 : ∀ i q, ((D1).lhsIdx i q (1 : Fin 2)).val = (q ⟨0, by rw [d1_rank]; omega⟩).val := by
  intro i q; simp [DotDims.lhsIdx, dot_S100000x512_S512x256_S100000x256_1_0_0_1_n_n]; rfl
theorem d1_r0 : ∀ i q, ((D1).rhsIdx i q (0 : Fin 2)).val = (q ⟨0, by rw [d1_rank]; omega⟩).val := by
  intro i q; simp [DotDims.rhsIdx, dot_S100000x512_S512x256_S100000x256_1_0_0_1_n_n]; rfl
theorem d1_r1 : ∀ i q, ((D1).rhsIdx i q (1 : Fin 2)).val = (i (1 : Fin 2)).val := by
  intro i q; simp [DotDims.rhsIdx, dot_S100000x512_S512x256_S100000x256_1_0_0_1_n_n]; rfl
end Dot1

section Dot2
local notation "D2" => dot_S100000x256_S256x64_S100000x64_1_0_0_1_n_n
theorem d2_rank : (D2).contr.rank = 1 := rfl
theorem d2_size : (D2).contr.size ⟨0, by rw [d2_rank]; omega⟩ = 256 := rfl
theorem d2_l0 : ∀ i q, ((D2).lhsIdx i q (0 : Fin 2)).val = (i (0 : Fin 2)).val := by
  intro i q; simp [DotDims.lhsIdx, dot_S100000x256_S256x64_S100000x64_1_0_0_1_n_n]; rfl
theorem d2_l1 : ∀ i q, ((D2).lhsIdx i q (1 : Fin 2)).val = (q ⟨0, by rw [d2_rank]; omega⟩).val := by
  intro i q; simp [DotDims.lhsIdx, dot_S100000x256_S256x64_S100000x64_1_0_0_1_n_n]; rfl
theorem d2_r0 : ∀ i q, ((D2).rhsIdx i q (0 : Fin 2)).val = (q ⟨0, by rw [d2_rank]; omega⟩).val := by
  intro i q; simp [DotDims.rhsIdx, dot_S100000x256_S256x64_S100000x64_1_0_0_1_n_n]; rfl
theorem d2_r1 : ∀ i q, ((D2).rhsIdx i q (1 : Fin 2)).val = (i (1 : Fin 2)).val := by
  intro i q; simp [DotDims.rhsIdx, dot_S100000x256_S256x64_S100000x64_1_0_0_1_n_n]; rfl
end Dot2

/-- At the extended reals the composed term is the specification's dense scores, entry by entry. -/
theorem denseTerm_eq (x : FVec Ideal ⟨2, ![100000, 512]⟩ .f32) (W1 : FVec Ideal ⟨2, ![512, 256]⟩ .f32)
    (b1 : FVec Ideal ⟨1, ![256]⟩ .f32) (W2 : FVec Ideal ⟨2, ![256, 64]⟩ .f32) (b2 : FVec Ideal ⟨1, ![64]⟩ .f32) :
    denseTerm (F := Ideal) x W1 b1 W2 b2 = Cert.Spec.dense x W1 b1 W2 b2 := by
  funext i
  obtain ⟨p, q, rfl⟩ : ∃ (p : Fin 100000) (q : Fin 64), i = ix2 p q := ⟨i 0, i 1, eq_ix2 i⟩
  show _ = Cert.Spec.denseAt x W1 (fun j => b1 (ix1 j)) W2 (fun j => b2 (ix1 j)) p q
  unfold denseTerm Cert.Spec.denseAt
  rw [addf_apply, MatmulAt.dotGeneral_ix2 _ d2_rank d2_size d2_l0 d2_l1 d2_r0 d2_r1,
    Cert.LibRowInDim.bcast_1b_ab_apply, Cert.LibRowInDim.bcast_b_1b_apply]
  refine congrArg (· + b2 (ix1 q)) (Finset.sum_congr rfl fun j _ => ?_)
  rw [maximumf_apply, addf_apply, MatmulAt.dotGeneral_ix2 _ d1_rank d1_size d1_l0 d1_l1 d1_r0 d1_r1,
    Cert.LibRowInDim.bcast_1b_ab_apply, Cert.LibRowInDim.bcast_b_1b_apply, HostRead.splat_at]

end Cert.ReferenceIdeal.Hand

end
-- ==== Proof.LibCallCasts.lean ====
/-
  The casts an inlined function call leaves around its values cancel.

  An operation of an inlined function call reads and writes its buffers through typed references: a value is carried
  to the buffer's own type when written (`toBuf`) and back when read (`ofBuf`), each a cast along the reference's
  type equation. So the fold of a line of such operations leaves one `ofBuf (toBuf v)` around every operand that
  another operation of the call produced. The two casts run along an equation and its inverse, so the pair is the
  identity; rewriting with that leaves the operations' plain composition.
-/
import Idealize.ShloMosaic.Lib.StableHlo

namespace Cert.LibCallCasts

open Idealize.ShloMosaic Idealize.ShloMosaic.StableHlo

variable {sig : RefSig} {Val : EltTy → Type}

/-- Contents carried to a buffer's type and back are the contents. -/
theorem ofBuf_toBuf {T : BufTy} (x : TRef sig T) (v : T.Contents Val) : x.ofBuf (x.toBuf v) = v := by
  unfold TRef.ofBuf TRef.toBuf
  simp only [cast_cast, cast_eq]

end Cert.LibCallCasts
-- ==== Proof.RefDense.lean ====
/-
  The dense layers' stretch: its fold at the scores' buffer is the eleven operations composed over the five
  arrays it reads, and it writes none of the program's arguments.
-/
import proofs.«111577_j53523882443605_1_alg».proof.Proof.RefOps
import proofs.«111577_j53523882443605_1_alg».proof.Proof.RefDenseSpec
import proofs.«111577_j53523882443605_1_alg».proof.Proof.LibCallCasts

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

/-- The stretch's result is the composed term of the features, the two weight matrices and the two biases. -/
theorem dense_fold (W : Valuation τ sig (Elt F)) :
    after opsA W (Proc.devRef .tc main_v8)
      = denseTerm (F := F) (W (Proc.devRef .tc main_arg0)) (W (Proc.devRef .tc main_arg4)) (W (Proc.devRef .tc main_arg5))
          (W (Proc.devRef .tc main_arg6)) (W (Proc.devRef .tc main_arg7)) := by
  after_results_simp
  simp only [Cert.LibCallCasts.ofBuf_toBuf]
  rfl

theorem dense_arg0 (W : Valuation τ sig (Elt F)) :
    after opsA W (Proc.devRef .tc main_arg0) = W (Proc.devRef .tc main_arg0) := by
  after_results_simp

theorem dense_arg1 (W : Valuation τ sig (Elt F)) :
    after opsA W (Proc.devRef .tc main_arg1) = W (Proc.devRef .tc main_arg1) := by
  after_results_simp

theorem dense_arg2 (W : Valuation τ sig (Elt F)) :
    after opsA W (Proc.devRef .tc main_arg2) = W (Proc.devRef .tc main_arg2) := by
  after_results_simp

theorem dense_arg3 (W : Valuation τ sig (Elt F)) :
    after opsA W (Proc.devRef .tc main_arg3) = W (Proc.devRef .tc main_arg3) := by
  after_results_simp

theorem dense_arg4 (W : Valuation τ sig (Elt F)) :
    after opsA W (Proc.devRef .tc main_arg4) = W (Proc.devRef .tc main_arg4) := by
  after_results_simp

theorem dense_arg5 (W : Valuation τ sig (Elt F)) :
    after opsA W (Proc.devRef .tc main_arg5) = W (Proc.devRef .tc main_arg5) := by
  after_results_simp

theorem dense_arg6 (W : Valuation τ sig (Elt F)) :
    after opsA W (Proc.devRef .tc main_arg6) = W (Proc.devRef .tc main_arg6) := by
  after_results_simp

theorem dense_arg7 (W : Valuation τ sig (Elt F)) :
    after opsA W (Proc.devRef .tc main_arg7) = W (Proc.devRef .tc main_arg7) := by
  after_results_simp

theorem dense_arg8 (W : Valuation τ sig (Elt F)) :
    after opsA W (Proc.devRef .tc main_arg8) = W (Proc.devRef .tc main_arg8) := by
  after_results_simp

end Cert.ReferenceIdeal.Hand

end
-- ==== Proof.RefMid.lean ====
/-
  The five hops, carried as one function.

  The 107 operations of this stretch read five arrays from outside it — the dense scores, the edges' target and
  source indices, the edges' weights and the five mixing coefficients — and their fold at the stretch's last buffer
  is the composition of the operations over those five. That composition is, operation for operation, the function
  `hops`; nothing about what a hop computes is used, only that the same operations are applied to the same arguments.
-/
import proofs.«111577_j53523882443605_1_alg».proof.Proof.RefOps
import proofs.«111577_j53523882443605_1_alg».proof.Proof.Hops

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

set_option maxHeartbeats 8000000 in  -- 107 operations folded in one pass
/-- The stretch's result is `hops` of the five arrays it reads. -/
theorem mid_fold (W : Valuation τ sig (Elt F)) :
    after opsB W (Proc.devRef .tc main_v99)
      = Cert.KernelIdeal.Hops.hops (F := F) (W (Proc.devRef .tc main_v8)) (W (Proc.devRef .tc main_arg1))
          (W (Proc.devRef .tc main_arg2)) (W (Proc.devRef .tc main_arg3)) (W (Proc.devRef .tc main_arg8)) := by
  after_results_simp
  rfl

/-! The stretch writes none of the program's arguments. -/

theorem mid_arg0 (W : Valuation τ sig (Elt F)) :
    after opsB W (Proc.devRef .tc main_arg0) = W (Proc.devRef .tc main_arg0) := by
  after_results_simp

theorem mid_arg1 (W : Valuation τ sig (Elt F)) :
    after opsB W (Proc.devRef .tc main_arg1) = W (Proc.devRef .tc main_arg1) := by
  after_results_simp

theorem mid_arg2 (W : Valuation τ sig (Elt F)) :
    after opsB W (Proc.devRef .tc main_arg2) = W (Proc.devRef .tc main_arg2) := by
  after_results_simp

theorem mid_arg3 (W : Valuation τ sig (Elt F)) :
    after opsB W (Proc.devRef .tc main_arg3) = W (Proc.devRef .tc main_arg3) := by
  after_results_simp

theorem mid_arg4 (W : Valuation τ sig (Elt F)) :
    after opsB W (Proc.devRef .tc main_arg4) = W (Proc.devRef .tc main_arg4) := by
  after_results_simp

theorem mid_arg5 (W : Valuation τ sig (Elt F)) :
    after opsB W (Proc.devRef .tc main_arg5) = W (Proc.devRef .tc main_arg5) := by
  after_results_simp

theorem mid_arg6 (W : Valuation τ sig (Elt F)) :
    after opsB W (Proc.devRef .tc main_arg6) = W (Proc.devRef .tc main_arg6) := by
  after_results_simp

theorem mid_arg7 (W : Valuation τ sig (Elt F)) :
    after opsB W (Proc.devRef .tc main_arg7) = W (Proc.devRef .tc main_arg7) := by
  after_results_simp

theorem mid_arg8 (W : Valuation τ sig (Elt F)) :
    after opsB W (Proc.devRef .tc main_arg8) = W (Proc.devRef .tc main_arg8) := by
  after_results_simp

end Cert.ReferenceIdeal.Hand

end
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.LibHostRowMax.lean ====
/-
  The host's largest entry along the columns, read at a row.

  At the ideal instance a float is an extended real and a maximum is the exact fold of `max` in any order. For an
  `[a, b]` matrix, the host's `reduce` with a `maximum` body over axis 1, read at row `p`, is the fold of `max` from
  the initial value over the row's entries `(p, k)`: the rank-2 companion of the rank-3 form `hostMax_last3`, over the
  same index fact `lift_row`.
-/
import proofs.«111577_j53523882443605_1_alg».proof.Proof.LibRowMax

noncomputable section

namespace Cert.LibHostRowMax

open Idealize.ShloMosaic Idealize.ShloMosaic.ValueIdx

/-- The host's `reduce` with a `maximum` body along the columns of an `[a, b]` array, read at row `p`: the fold of
    `max` from the initial value over the row's entries. -/
theorem hostMax_row {a b : ℕ} {u : Shape} (x : FVec Ideal ⟨2, ![a, b]⟩ .f32) (init : FVec Ideal u .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) fun k => x (ix2 p k) := by
  have h : (⟨2, ![a, b]⟩ : Shape).Reduces [1] ⟨1, ![a]⟩ := ⟨h'.1, Nat.one_pos, h'.2⟩
  refine (Host.reduce_eq_fold_single (FloatOps.maximumf (F := Ideal) (φ := .f32)) x init h' h hu (ix1 p)).trans ?_
  exact congrArg (fun f => Finset.fold max (init (Shape.Idx.first hu)) f (Finset.univ : Finset (Fin b)))
    (funext fun k => congrArg x (Cert.LibRowMax.lift_row h p k))

end Cert.LibHostRowMax

end
-- ==== Proof.RefTailSpec.lean ====
/-
  The log-softmax's fifteen operations, composed, are the specification's row-wise log-softmax.

  The row's maximum is a fold of max from -∞ over the row; the second maximum against -∞ leaves it as it is. The
  maximum, stood up as a column and stretched over the 64 classes, is subtracted from every entry. The exponentials
  of the shifted entries are summed along the row from the zero word, which adds nothing; the logarithm of the sum,
  stood up and stretched the same way, is subtracted from the shifted entry.
-/
import proofs.«111577_j53523882443605_1_alg».proof.Proof.Gen.ReferenceIdeal
import proofs.«111577_j53523882443605_1_alg».proof.Proof.Spec
import proofs.«111577_j53523882443605_1_alg».proof.Proof.LibColInDim
import proofs.«111577_j53523882443605_1_alg».proof.Proof.LibHostRead
import proofs.«111577_j53523882443605_1_alg».proof.Proof.LibHostRowMax
import proofs.«111577_j53523882443605_1_alg».proof.Proof.LibRowSum

noncomputable section

open scoped BigOperators

namespace Cert.ReferenceIdeal.Hand

open Idealize.ShloMosaic Idealize.ShloMosaic.ValueIdx
open Cert.ReferenceIdeal Cert.ReferenceIdeal.Gen

variable {F : FTy → Type} [FloatOps F]

/-- Each row's largest entry (with the second maximum against -∞), repeated along the row. -/
def rowMaxTerm (v : (⟨S100000x64, .f32⟩ : BufTy).Contents (Elt F)) : (⟨S100000x64, .f32⟩ : BufTy).Contents (Elt F) :=
  broadcastInDim S100000x64 ![0, 1] bcast_S100000x1_S100000x64_0_1
    (broadcastInDim S100000x1 ![0] bcast_S100000_S100000x1_0
      (maximumf (broadcastInDim S100000 ![] bcast_S_S100000 (constant S_ .f32 0xFF800000#32))
        (Host.reduce FloatOps.maximumf v (constant S_ .f32 0xFF800000#32) reducesTo_S100000x64_S100000_d1 h_S_)))

/-- The entries shifted by their row's largest entry. -/
def shiftTerm (v : (⟨S100000x64, .f32⟩ : BufTy).Contents (Elt F)) : (⟨S100000x64, .f32⟩ : BufTy).Contents (Elt F) :=
  subf v (rowMaxTerm v)

/-- The fifteen operations composed. -/
def lsmTerm (v : (⟨S100000x64, .f32⟩ : BufTy).Contents (Elt F)) : (⟨S100000x64, .f32⟩ : BufTy).Contents (Elt F) :=
  subf (shiftTerm v)
    (broadcastInDim S100000x64 ![0, 1] bcast_S100000x1_S100000x64_0_1
      (Host.log (broadcastInDim S100000x1 ![0] bcast_S100000_S100000x1_0
        (Host.reduceAdd (Host.exp (shiftTerm v)) (constant S_ .f32 0x00000000#32) reducesTo_S100000x64_S100000_d1 h_S_))))

/-- The host's exponential read at an index. -/
theorem hostExp_at {s : Shape} (x : FVec Ideal s .f32) (i : s.Idx) : Host.exp x i = Ideal.exp (x i) := rfl

/-- The host's logarithm read at an index. -/
theorem hostLog_at {s : Shape} (x : FVec Ideal s .f32) (i : s.Idx) : Host.log x i = Ideal.log (x i) := rfl

/-- The repeated maximum read at an entry: the row's largest entry. -/
theorem rowMaxTerm_at (v : FVec Ideal ⟨2, ![100000, 64]⟩ .f32) (p : Fin 100000) (q : Fin 64) :
    rowMaxTerm (F := Ideal) v (ix2 p q) = Cert.Spec.rowMax v p := by
  unfold rowMaxTerm Cert.Spec.rowMax
  rw [Cert.LibColInDim.bcast_a1_ab_apply, Cert.LibColInDim.bcast_a_a1_apply, maximumf_apply, HostRead.splat_at,
    Cert.Spec.max_negInf, Cert.LibHostRowMax.hostMax_row, constant_apply]

/-- The shifted entry. -/
theorem shiftTerm_at (v : FVec Ideal ⟨2, ![100000, 64]⟩ .f32) (p : Fin 100000) (q : Fin 64) :
    shiftTerm (F := Ideal) v (ix2 p q) = v (ix2 p q) - Cert.Spec.rowMax v p := by
  unfold shiftTerm
  rw [subf_apply, rowMaxTerm_at]

/-- At the extended reals the composed term is the specification's log-softmax, entry by entry. -/
theorem lsmTerm_eq (v : FVec Ideal ⟨2, ![100000, 64]⟩ .f32) : lsmTerm (F := Ideal) v = Cert.Spec.lsm v := by
  funext i
  obtain ⟨p, q, rfl⟩ : ∃ (p : Fin 100000) (q : Fin 64), i = ix2 p q := ⟨i 0, i 1, eq_ix2 i⟩
  show _ = Cert.Spec.lsmAt v p q
  unfold lsmTerm Cert.Spec.lsmAt
  rw [subf_apply, shiftTerm_at, Cert.LibColInDim.bcast_a1_ab_apply]
  refine congrArg (fun t => (v (ix2 p q) - Cert.Spec.rowMax v p) - t) ?_
  rw [hostLog_at, Cert.LibColInDim.bcast_a_a1_apply, Cert.LibRowSum.hostSum_row, constant_apply,
    Cert.Spec.zero_add_sum]
  refine congrArg Ideal.log (Finset.sum_congr rfl fun k _ => ?_)
  rw [hostExp_at, shiftTerm_at]

end Cert.ReferenceIdeal.Hand

end
-- ==== Proof.RefTail.lean ====
/-
  The log-softmax's stretch: its fold at the result's buffer is the fifteen operations composed over the array it
  reads, and it writes none of the program's arguments.
-/
import proofs.«111577_j53523882443605_1_alg».proof.Proof.RefOps
import proofs.«111577_j53523882443605_1_alg».proof.Proof.RefTailSpec
import proofs.«111577_j53523882443605_1_alg».proof.Proof.LibCallCasts

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

/-- The stretch's result is the composed term of the propagated scores. -/
theorem tail_fold (W : Valuation τ sig (Elt F)) :
    after opsC W (Proc.devRef .tc main_v100) = lsmTerm (F := F) (W (Proc.devRef .tc main_v99)) := by
  after_results_simp
  simp only [Cert.LibCallCasts.ofBuf_toBuf]
  rfl

theorem tail_arg0 (W : Valuation τ sig (Elt F)) :
    after opsC W (Proc.devRef .tc main_arg0) = W (Proc.devRef .tc main_arg0) := by
  after_results_simp

theorem tail_arg1 (W : Valuation τ sig (Elt F)) :
    after opsC W (Proc.devRef .tc main_arg1) = W (Proc.devRef .tc main_arg1) := by
  after_results_simp

theorem tail_arg2 (W : Valuation τ sig (Elt F)) :
    after opsC W (Proc.devRef .tc main_arg2) = W (Proc.devRef .tc main_arg2) := by
  after_results_simp

theorem tail_arg3 (W : Valuation τ sig (Elt F)) :
    after opsC W (Proc.devRef .tc main_arg3) = W (Proc.devRef .tc main_arg3) := by
  after_results_simp

theorem tail_arg4 (W : Valuation τ sig (Elt F)) :
    after opsC W (Proc.devRef .tc main_arg4) = W (Proc.devRef .tc main_arg4) := by
  after_results_simp

theorem tail_arg5 (W : Valuation τ sig (Elt F)) :
    after opsC W (Proc.devRef .tc main_arg5) = W (Proc.devRef .tc main_arg5) := by
  after_results_simp

theorem tail_arg6 (W : Valuation τ sig (Elt F)) :
    after opsC W (Proc.devRef .tc main_arg6) = W (Proc.devRef .tc main_arg6) := by
  after_results_simp

theorem tail_arg7 (W : Valuation τ sig (Elt F)) :
    after opsC W (Proc.devRef .tc main_arg7) = W (Proc.devRef .tc main_arg7) := by
  after_results_simp

theorem tail_arg8 (W : Valuation τ sig (Elt F)) :
    after opsC W (Proc.devRef .tc main_arg8) = W (Proc.devRef .tc main_arg8) := by
  after_results_simp

end Cert.ReferenceIdeal.Hand

end
-- ==== Proof.RefRun.lean ====
/-
  The reference's run, assembled.

  Every fair run of the reference from any memory ends, and ends with the result buffer holding the row-wise
  log-softmax of the five hops of the dense scores of its arguments, the arguments' buffers as they were. The three
  stretches are chained: the dense layers' scores go into the hops as their first argument, the hops' result into the
  log-softmax; each stretch leaves the arguments alone, so each later stretch reads what the launch put there.
-/
import proofs.«111577_j53523882443605_1_alg».proof.Proof.RefOps
import proofs.«111577_j53523882443605_1_alg».proof.Proof.RefDense
import proofs.«111577_j53523882443605_1_alg».proof.Proof.RefMid
import proofs.«111577_j53523882443605_1_alg».proof.Proof.RefTail
import proofs.«111577_j53523882443605_1_alg».proof.Proof.Hops

noncomputable section

namespace Cert.ReferenceIdeal.Hand

open Idealize.ShloMosaic Idealize.SL.Sem Idealize.ShloMosaic.StableHlo
open Cert.ReferenceIdeal Cert.ReferenceIdeal.Gen

variable {F : FTy → Type} [FloatOps F]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v100)
          = Cert.KernelIdeal.Hops.out (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
              (m ((c.tc : Thread nD τ).loc main_arg5)) (m ((c.tc : Thread nD τ).loc main_arg6)) (m ((c.tc : Thread nD τ).loc main_arg7))
              (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ?_) (fold_run m ρ)
  refine ⟨?_, ?_, ?_, ?_, ?_, ?_, ?_, ?_, ?_, ?_⟩
  · rw [h c main_v100, tail_fold, mid_fold, dense_fold, dense_arg1, dense_arg2, dense_arg3, dense_arg8, lsmTerm_eq,
      denseTerm_eq]
    rfl
  · rw [h c main_arg0, tail_arg0, mid_arg0, dense_arg0]
  · rw [h c main_arg1, tail_arg1, mid_arg1, dense_arg1]
  · rw [h c main_arg2, tail_arg2, mid_arg2, dense_arg2]
  · rw [h c main_arg3, tail_arg3, mid_arg3, dense_arg3]
  · rw [h c main_arg4, tail_arg4, mid_arg4, dense_arg4]
  · rw [h c main_arg5, tail_arg5, mid_arg5, dense_arg5]
  · rw [h c main_arg6, tail_arg6, mid_arg6, dense_arg6]
  · rw [h c main_arg7, tail_arg7, mid_arg7, dense_arg7]
  · rw [h c main_arg8, tail_arg8, mid_arg8, dense_arg8]

end Cert.ReferenceIdeal.Hand

end
-- ==== Proof.lean ====
/-
  A graph network's forward pass: two dense layers with a rectifier between them give every node 64 class scores,
  five propagation hops over 3.2 million weighted edges mix each node's scores with its in-neighbours', and every
  row is normalised by the logarithm of its softmax.

  The kernel program computes the dense layers in one pipelined region over 50 blocks of 2000 rows (its matrix
  products on operands narrowed to a shorter float format), the hops with host operations, and the log-softmax in
  a second pipelined region over 25 blocks of 4000 rows. The reference computes all of it with host operations on
  whole arrays. On the extended reals the two agree, for every input:
    * narrowing a float's format is the identity, and a matrix product is the same sum over the contracted
      coordinate whether a kernel or the host forms it;
    * the dense layers and the log-softmax compute each output row from the same row of their input alone, so
      computing them block of rows by block of rows gives the whole-array function;
    * the hops are spelt with the same operations in the same order in both programs, so they are carried as one
      function of equal arguments and never opened;
    * the reference's log-softmax takes one more maximum, against -∞, which is the identity, and starts its sum
      from zero.
  No step uses finiteness of the inputs. Both programs' runs end at the same expression `out` of the nine
  argument arrays; the frames are the programs' generated frame certificates (the reference's its run with the
  result dropped); the idealization rewrote no operation.
-/
import proofs.«111577_j53523882443605_1_alg».proof.Defs
import proofs.«111577_j53523882443605_1_alg».proof.Proof.Gen.Kernel
import proofs.«111577_j53523882443605_1_alg».proof.Proof.Gen.Kernel.Frame
import proofs.«111577_j53523882443605_1_alg».proof.Proof.Gen.KernelIdeal
import proofs.«111577_j53523882443605_1_alg».proof.Proof.Gen.KernelIdeal.Frame
import proofs.«111577_j53523882443605_1_alg».proof.Proof.Gen.ReferenceIdeal
import proofs.«111577_j53523882443605_1_alg».proof.Proof.Gen.Pre_finite_inputs
import proofs.«111577_j53523882443605_1_alg».proof.Proof.KernelValue
import proofs.«111577_j53523882443605_1_alg».proof.Proof.RefRun
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Hand.run m ρ)

/-- The idealization rewrote no operation. -/
theorem preserves : Cert.preserves_Kernel_KernelIdeal := trivial

/-- From memories that agree on the nine arguments both runs end with the result at `out` of those arguments. -/
theorem algebraic : Cert.algebraic_KernelIdeal_ReferenceIdeal := by
  intro m ρ m' ρ' _ hagree
  refine ⟨fun c => Cert.KernelIdeal.Hops.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.Hand.run m ρ, ?_⟩
  refine (θ_run Cert.ReferenceIdeal.defs _ _).mono (fun _ h c => ⟨(h c).1.trans ?_, (h c).2⟩)
    (Cert.ReferenceIdeal.Hand.run m' ρ')
  obtain ⟨a0, a1, a2, a3, a4, a5, a6, a7, a8⟩ := hagree c
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
